-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v51)) (v1 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_v67) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S512x200 : Shape := ⟨2, ![512, 200]⟩
abbrev S200 : Shape := ⟨1, ![200]⟩
abbrev S2x800000 : Shape := ⟨2, ![2, 800000]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x200 : S_.BroadcastsInDim S512x200 (![] : Fin 0 → Fin S512x200.rank)
  reducesTo_S512x200_S_d0_1 : S512x200.ReducesTo [0, 1] S_
  bcast_S_S200 : S_.BroadcastsInDim S200 (![] : Fin 0 → Fin S200.rank)
  reducesTo_S200_S_d0 : S200.ReducesTo [0] S_

variable [Facts]

def fn_part1 {F : FTy → Type} [FloatOps F] (main_arg4 : FVec F S200 .f32) (main_v13 : IVec S_ 1) (main_v16 : IVec S512x200 1) : IVec S_ 1 :=
  let main_c_5 : IVec S_ 1 := constantI S_ 1 1#1
  let main_v17 : IVec S_ 1 := (fun x v => Host.reduce IntOp.andi x v reducesTo_S512x200_S_d0_1 h_S_) main_v16 main_c_5
  let main_v18 : IVec S_ 1 := andi main_v13 main_v17
  let main_v19 : FVec F S200 .f32 := Host.absf main_arg4
  let main_cst_6 : FVec F S_ .f32 := constant S_ .f32 0x7F800000#32
  let main_v20 : FVec F S200 .f32 := broadcastInDim S200 ![] bcast_S_S200 main_cst_6
  let main_v21 : IVec S200 1 := cmpf .olt main_v19 main_v20
  let main_c_7 : IVec S_ 1 := constantI S_ 1 1#1
  let main_v22 : IVec S_ 1 := (fun x v => Host.reduce IntOp.andi x v reducesTo_S200_S_d0 h_S_) main_v21 main_c_7
  let main_v23 : IVec S_ 1 := andi main_v18 main_v22
  main_v23

def fn {F : FTy → Type} [FloatOps F] (main_arg0 : FVec F S50000x512 .f32) (main_arg1 : FVec F S512x200 .f32) (main_arg2 : FVec F S200 .f32) (main_arg3 : FVec F S512x200 .f32) (main_arg4 : FVec F S200 .f32) (main_arg5 : IVec S2x800000 32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x200 .f32 := Host.absf main_arg1
  let main_cst_0 : FVec F S_ .f32 := constant S_ .f32 0x7F800000#32
  let main_v5 : FVec F S512x200 .f32 := broadcastInDim S512x200 ![] bcast_S_S512x200 main_cst_0
  let main_v6 : IVec S512x200 1 := cmpf .olt main_v4 main_v5
  let main_c_1 : IVec S_ 1 := constantI S_ 1 1#1
  let main_v7 : IVec S_ 1 := (fun x v => Host.reduce IntOp.andi x v reducesTo_S512x200_S_d0_1 h_S_) main_v6 main_c_1
  let main_v8 : IVec S_ 1 := andi main_v3 main_v7
  let main_v9 : FVec F S200 .f32 := Host.absf main_arg2
  let main_cst_2 : FVec F S_ .f32 := constant S_ .f32 0x7F800000#32
  let main_v10 : FVec F S200 .f32 := broadcastInDim S200 ![] bcast_S_S200 main_cst_2
  let main_v11 : IVec S200 1 := cmpf .olt main_v9 main_v10
  let main_c_3 : IVec S_ 1 := constantI S_ 1 1#1
  let main_v12 : IVec S_ 1 := (fun x v => Host.reduce IntOp.andi x v reducesTo_S200_S_d0 h_S_) main_v11 main_c_3
  let main_v13 : IVec S_ 1 := andi main_v8 main_v12
  let main_v14 : FVec F S512x200 .f32 := Host.absf main_arg3
  let main_cst_4 : FVec F S_ .f32 := constant S_ .f32 0x7F800000#32
  let main_v15 : FVec F S512x200 .f32 := broadcastInDim S512x200 ![] bcast_S_S512x200 main_cst_4
  let main_v16 : IVec S512x200 1 := cmpf .olt main_v14 main_v15
  fn_part1 (F := F) main_arg4 main_v13 main_v16
-- ==== Kernel.lean ====
abbrev S50000x512 : Shape := ⟨2, ![50000, 512]⟩
abbrev S512x200 : Shape := ⟨2, ![512, 200]⟩
abbrev S200 : Shape := ⟨1, ![200]⟩
abbrev S2x800000 : Shape := ⟨2, ![2, 800000]⟩
abbrev S512x400 : Shape := ⟨2, ![512, 400]⟩
abbrev S50000x400 : Shape := ⟨2, ![50000, 400]⟩
abbrev S5000x512 : Shape := ⟨2, ![5000, 512]⟩
abbrev S5000x400 : Shape := ⟨2, ![5000, 400]⟩
abbrev S50000x200 : Shape := ⟨2, ![50000, 200]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x200 : Shape := ⟨2, ![850000, 200]⟩
abbrev S1x200 : Shape := ⟨2, ![1, 200]⟩

abbrev nBuf : Space → Nat
  | .hbm => 90
  | .vmem => 5
  | .smem => 0
  | _ => 0

abbrev bufTy : (tb : Table) → Fin (tcTables nBuf tb) → BufTy
  | .hbm, ⟨0, _⟩ => ⟨S50000x512, .f32⟩
  | .hbm, ⟨1, _⟩ => ⟨S512x200, .f32⟩
  | .hbm, ⟨2, _⟩ => ⟨S200, .f32⟩
  | .hbm, ⟨3, _⟩ => ⟨S512x200, .f32⟩
  | .hbm, ⟨4, _⟩ => ⟨S200, .f32⟩
  | .hbm, ⟨5, _⟩ => ⟨S2x800000, .i32⟩
  | .hbm, ⟨6, _⟩ => ⟨S512x400, .f32⟩
  | .hbm, ⟨7, _⟩ => ⟨S50000x512, .bf16⟩
  | .hbm, ⟨8, _⟩ => ⟨S512x400, .bf16⟩
  | .hbm, ⟨9, _⟩ => ⟨S50000x400, .f32⟩
  | .hbm, ⟨10, _⟩ => ⟨S50000x200, .f32⟩
  | .hbm, ⟨11, _⟩ => ⟨S50000x200, .f32⟩
  | .hbm, ⟨12, _⟩ => ⟨S50000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S1x800000, .i32⟩
  | .hbm, ⟨17, _⟩ => ⟨S800000, .i32⟩
  | .hbm, ⟨18, _⟩ => ⟨S850000, .i32⟩
  | .hbm, ⟨19, _⟩ => ⟨S_, .f32⟩
  | .hbm, ⟨20, _⟩ => ⟨S850000, .f32⟩
  | .hbm, ⟨21, _⟩ => ⟨S_, .f32⟩
  | .hbm, ⟨22, _⟩ => ⟨S50000, .f32⟩
  | .hbm, ⟨23, _⟩ => ⟨S850000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .i1⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .i32⟩
  | .hbm, ⟨34, _⟩ => ⟨S850000, .i32⟩
  | .hbm, ⟨35, _⟩ => ⟨S850000, .i1⟩
  | .hbm, ⟨36, _⟩ => ⟨S_, .i32⟩
  | .hbm, ⟨37, _⟩ => ⟨S850000, .i32⟩
  | .hbm, ⟨38, _⟩ => ⟨S850000, .i32⟩
  | .hbm, ⟨39, _⟩ => ⟨S850000, .i32⟩
  | .hbm, ⟨40, _⟩ => ⟨S850000x1, .i32⟩
  | .hbm, ⟨41, _⟩ => ⟨S850000, .f32⟩
  | .hbm, ⟨42, _⟩ => ⟨S_, .i32⟩
  | .hbm, ⟨43, _⟩ => ⟨S850000, .i32⟩
  | .hbm, ⟨44, _⟩ => ⟨S850000, .i1⟩
  | .hbm, ⟨45, _⟩ => ⟨S_, .i32⟩
  | .hbm, ⟨46, _⟩ => ⟨S850000, .i32⟩
  | .hbm, ⟨47, _⟩ => ⟨S850000, .i32⟩
  | .hbm, ⟨48, _⟩ => ⟨S850000, .i32⟩
  | .hbm, ⟨49, _⟩ => ⟨S850000x1, .i32⟩
  | .hbm, ⟨50, _⟩ => ⟨S850000, .f32⟩
  | .hbm, ⟨51, _⟩ => ⟨S850000, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x200, .f32⟩
  | .hbm, ⟨61, _⟩ => ⟨S850000x1, .f32⟩
  | .hbm, ⟨62, _⟩ => ⟨S850000x200, .f32⟩
  | .hbm, ⟨63, _⟩ => ⟨S850000x200, .f32⟩
  | .hbm, ⟨64, _⟩ => ⟨S_, .f32⟩
  | .hbm, ⟨65, _⟩ => ⟨S50000x200, .f32⟩
  | .hbm, ⟨66, _⟩ => ⟨S850000x1, .i32⟩
  | .hbm, ⟨67, _⟩ => ⟨S50000x200, .f32⟩
  | .hbm, ⟨68, _⟩ => ⟨S1x200, .f32⟩
  | .hbm, ⟨69, _⟩ => ⟨S50000x200, .f32⟩
  | .hbm, ⟨70, _⟩ => ⟨S50000x200, .f32⟩
  | .hbm, ⟨71, _⟩ => ⟨S_, .i32⟩
  | .hbm, ⟨72, _⟩ => ⟨S850000, .i32⟩
  | .hbm, ⟨73, _⟩ => ⟨S850000, .i1⟩
  | .hbm, ⟨74, _⟩ => ⟨S_, .i32⟩
  | .hbm, ⟨75, _⟩ => ⟨S850000, .i32⟩
  | .hbm, ⟨76, _⟩ => ⟨S850000, .i32⟩
  | .hbm, ⟨77, _⟩ => ⟨S850000, .i32⟩
  | .hbm, ⟨78, _⟩ => ⟨S850000x1, .i32⟩
  | .hbm, ⟨79, _⟩ => ⟨S850000x200, .f32⟩
  | .hbm, ⟨80, _⟩ => ⟨S850000x1, .f32⟩
  | .hbm, ⟨81, _⟩ => ⟨S850000x200, .f32⟩
  | .hbm, ⟨82, _⟩ => ⟨S850000x200, .f32⟩
  | .hbm, ⟨83, _⟩ => ⟨S_, .f32⟩
  | .hbm, ⟨84, _⟩ => ⟨S50000x200, .f32⟩
  | .hbm, ⟨85, _⟩ => ⟨S850000x1, .i32⟩
  | .hbm, ⟨86, _⟩ => ⟨S50000x200, .f32⟩
  | .hbm, ⟨87, _⟩ => ⟨S1x200, .f32⟩
  | .hbm, ⟨88, _⟩ => ⟨S50000x200, .f32⟩
  | .hbm, ⟨89, _⟩ => ⟨S50000x200, .f32⟩
  | .local _ .vmem, ⟨0, _⟩ => ⟨S5000x512, .bf16⟩
  | .local _ .vmem, ⟨1, _⟩ => ⟨S5000x512, .bf16⟩
  | .local _ .vmem, ⟨2, _⟩ => ⟨S512x400, .bf16⟩
  | .local _ .vmem, ⟨3, _⟩ => ⟨S5000x400, .f32⟩
  | .local _ .vmem, ⟨4, _⟩ => ⟨S5000x400, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v20 : Ref sig .tc := ⟨.hbm, 32, rfl⟩
abbrev main_c : Ref sig .tc := ⟨.hbm, 33, rfl⟩
abbrev main_v21 : Ref sig .tc := ⟨.hbm, 34, rfl⟩
abbrev main_v22 : Ref sig .tc := ⟨.hbm, 35, rfl⟩
abbrev main_c_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_6 : Ref sig .tc := ⟨.hbm, 52, rfl⟩
abbrev main_v36 : Ref sig .tc := ⟨.hbm, 53, rfl⟩
abbrev main_v37 : Ref sig .tc := ⟨.hbm, 54, rfl⟩
abbrev main_c_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_c_9 : Ref sig .tc := ⟨.hbm, 71, rfl⟩
abbrev main_v52 : Ref sig .tc := ⟨.hbm, 72, rfl⟩
abbrev main_v53 : Ref sig .tc := ⟨.hbm, 73, rfl⟩
abbrev main_c_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_11 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x400 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x400 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  concatenates_S512x200_S512x200_S512x400_d1 : Shape.Concatenates [S512x200, S512x200] S512x400 1
  bitsLt_bf16_f32 : FTy.bits .bf16 < FTy.bits .f32
  inb_S5000x512_S5000x512_0_0 : ∀ a, (![0, 0] : Fin 2 → Nat) a + S5000x512.size a ≤ S5000x512.size a
  h_S5000x512 : 0 < S5000x512.numel
  shapeCasts_S5000x512_S5000x512 : S5000x512.ShapeCasts S5000x512
  inb_S512x400_S512x400_0_0 : ∀ a, (![0, 0] : Fin 2 → Nat) a + S512x400.size a ≤ S512x400.size a
  h_S512x400 : 0 < S512x400.numel
  shapeCasts_S512x400_S512x400 : S512x400.ShapeCasts S512x400
  inb_S5000x400_S5000x400_0_0 : ∀ a, (![0, 0] : Fin 2 → Nat) a + S5000x400.size a ≤ S5000x400.size a
  h_S5000x400 : 0 < S5000x400.numel
  slices_S50000x400_S50000x200_0_0 : S50000x400.Slices ![0, 0] S50000x200
  slices_S50000x400_S50000x200_0_200 : S50000x400.Slices ![0, 200] S50000x200
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x200_0_1 : S850000x1.BroadcastsInDim S850000x200 (![0, 1] : Fin 2 → Fin S850000x200.rank)
  bcast_S_S50000x200 : S_.BroadcastsInDim S50000x200 (![] : Fin 0 → Fin S50000x200.rank)
  bcast_S200_S1x200_1 : S200.BroadcastsInDim S1x200 (![1] : Fin 1 → Fin S1x200.rank)
  bcast_S1x200_S50000x200_0_1 : S1x200.BroadcastsInDim S50000x200 (![0, 1] : Fin 2 → Fin S50000x200.rank)
  dot_S5000x512_S512x400_S5000x400_1_0_0_1_n_n_wf : DotDims.WF S5000x512 S512x400 S5000x400 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x200_S850000x1_S850000x200_1_0_n_n_0_1_1200_wf : GatherDims.WF S50000x200 S850000x1 S850000x200 [1] [0] [] [0] [] 1 ![1, 200]
  scatter_S50000x200_S850000x1_S850000x200_1_0_0_1_wf : ScatterDims.WF S50000x200 S850000x1 S850000x200 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S50000x512.size a
  hwx0_0 : ∀ i : grid0.Coords, EltTy.bits .bf16 = 32 ∨ (Rect.block (s := S50000x512) S5000x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x400.size a ≤ S512x400.size a
  hwx0_1 : ∀ i : grid0.Coords, EltTy.bits .bf16 = 32 ∨ (Rect.block (s := S512x400) S512x400.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x400.size a ≤ S50000x400.size a
  hwx0_2 : ∀ i : grid0.Coords, EltTy.bits .f32 = 32 ∨ (Rect.block (s := S50000x400) S5000x400.size (cc0_transform_2 i) (hinb0_2 i)).WholeWords (EltTy.packing .f32)

variable [Facts₀]

def dot_S5000x512_S512x400_S5000x400_1_0_0_1_n_n : DotDims S5000x512 S512x400 S5000x400 where
  lhsContracting := [1]
  rhsContracting := [0]
  lhsNonContracting := [0]
  rhsNonContracting := [1]
  lhsBatch := []
  rhsBatch := []
  wf := dot_S5000x512_S512x400_S5000x400_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x200_S850000x1_S850000x200_1_0_n_n_0_1_1200 : GatherDims S50000x200 S850000x1 S850000x200 where
  offsetDims := [1]
  collapsedSliceDims := [0]
  operandBatchingDims := []
  startIndicesBatchingDims := []
  startIndexMap := [0]
  indexVectorDim := 1
  sliceSizes := ![1, 200]
  wf := gather_S50000x200_S850000x1_S850000x200_1_0_n_n_0_1_1200_wf
def scatter_S50000x200_S850000x1_S850000x200_1_0_0_1 : ScatterDims S50000x200 S850000x1 S850000x200 where
  updateWindowDims := [1]
  insertedWindowDims := [0]
  scatterDimsToOperandDims := [0]
  indexVectorDim := 1
  wf := scatter_S50000x200_S850000x1_S850000x200_1_0_0_1_wf

abbrev win0_0 : Pipeline.Window sig grid0 :=
  Pipeline.Window.ofSpec (Memref.whole main_v1) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x400.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S5000x400.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x512 : Shape := ⟨2, ![50000, 512]⟩
abbrev S512x200 : Shape := ⟨2, ![512, 200]⟩
abbrev S200 : Shape := ⟨1, ![200]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x200 : Shape := ⟨2, ![50000, 200]⟩
abbrev S850000x200 : Shape := ⟨2, ![850000, 200]⟩
abbrev S1x200 : Shape := ⟨2, ![1, 200]⟩

abbrev nBuf : Space → Nat
  | .hbm => 86
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S512x200, .f32⟩
  | .hbm, ⟨2, _⟩ => ⟨S200, .f32⟩
  | .hbm, ⟨3, _⟩ => ⟨S512x200, .f32⟩
  | .hbm, ⟨4, _⟩ => ⟨S200, .f32⟩
  | .hbm, ⟨5, _⟩ => ⟨S2x800000, .i32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x200, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x200, .f32⟩
  | .hbm, ⟨56, _⟩ => ⟨S850000x1, .f32⟩
  | .hbm, ⟨57, _⟩ => ⟨S850000x200, .f32⟩
  | .hbm, ⟨58, _⟩ => ⟨S850000x200, .f32⟩
  | .hbm, ⟨59, _⟩ => ⟨S_, .f32⟩
  | .hbm, ⟨60, _⟩ => ⟨S50000x200, .f32⟩
  | .hbm, ⟨61, _⟩ => ⟨S850000x1, .i32⟩
  | .hbm, ⟨62, _⟩ => ⟨S50000x200, .f32⟩
  | .hbm, ⟨63, _⟩ => ⟨S1x200, .f32⟩
  | .hbm, ⟨64, _⟩ => ⟨S50000x200, .f32⟩
  | .hbm, ⟨65, _⟩ => ⟨S50000x200, .f32⟩
  | .hbm, ⟨66, _⟩ => ⟨S50000x200, .f32⟩
  | .hbm, ⟨67, _⟩ => ⟨S_, .i32⟩
  | .hbm, ⟨68, _⟩ => ⟨S850000, .i32⟩
  | .hbm, ⟨69, _⟩ => ⟨S850000, .i1⟩
  | .hbm, ⟨70, _⟩ => ⟨S_, .i32⟩
  | .hbm, ⟨71, _⟩ => ⟨S850000, .i32⟩
  | .hbm, ⟨72, _⟩ => ⟨S850000, .i32⟩
  | .hbm, ⟨73, _⟩ => ⟨S850000, .i32⟩
  | .hbm, ⟨74, _⟩ => ⟨S850000x1, .i32⟩
  | .hbm, ⟨75, _⟩ => ⟨S850000x200, .f32⟩
  | .hbm, ⟨76, _⟩ => ⟨S850000x1, .f32⟩
  | .hbm, ⟨77, _⟩ => ⟨S850000x200, .f32⟩
  | .hbm, ⟨78, _⟩ => ⟨S850000x200, .f32⟩
  | .hbm, ⟨79, _⟩ => ⟨S_, .f32⟩
  | .hbm, ⟨80, _⟩ => ⟨S50000x200, .f32⟩
  | .hbm, ⟨81, _⟩ => ⟨S850000x1, .i32⟩
  | .hbm, ⟨82, _⟩ => ⟨S50000x200, .f32⟩
  | .hbm, ⟨83, _⟩ => ⟨S1x200, .f32⟩
  | .hbm, ⟨84, _⟩ => ⟨S50000x200, .f32⟩
  | .hbm, ⟨85, _⟩ => ⟨S50000x200, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_9 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x200_0_1 : S850000x1.BroadcastsInDim S850000x200 (![0, 1] : Fin 2 → Fin S850000x200.rank)
  bcast_S_S50000x200 : S_.BroadcastsInDim S50000x200 (![] : Fin 0 → Fin S50000x200.rank)
  bcast_S200_S1x200_1 : S200.BroadcastsInDim S1x200 (![1] : Fin 1 → Fin S1x200.rank)
  bcast_S1x200_S50000x200_0_1 : S1x200.BroadcastsInDim S50000x200 (![0, 1] : Fin 2 → Fin S50000x200.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x512_S512x200_S50000x200_1_0_0_1_n_n_wf : DotDims.WF S50000x512 S512x200 S50000x200 [1] [0] [0] [1] [] []
  gather_S50000x200_S850000x1_S850000x200_1_0_n_n_0_1_1200_wf : GatherDims.WF S50000x200 S850000x1 S850000x200 [1] [0] [] [0] [] 1 ![1, 200]
  scatter_S50000x200_S850000x1_S850000x200_1_0_0_1_wf : ScatterDims.WF S50000x200 S850000x1 S850000x200 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x512_S512x200_S50000x200_1_0_0_1_n_n : DotDims S50000x512 S512x200 S50000x200 where
  lhsContracting := [1]
  rhsContracting := [0]
  lhsNonContracting := [0]
  rhsNonContracting := [1]
  lhsBatch := []
  rhsBatch := []
  wf := dot_S50000x512_S512x200_S50000x200_1_0_0_1_n_n_wf
def gather_S50000x200_S850000x1_S850000x200_1_0_n_n_0_1_1200 : GatherDims S50000x200 S850000x1 S850000x200 where
  offsetDims := [1]
  collapsedSliceDims := [0]
  operandBatchingDims := []
  startIndicesBatchingDims := []
  startIndexMap := [0]
  indexVectorDim := 1
  sliceSizes := ![1, 200]
  wf := gather_S50000x200_S850000x1_S850000x200_1_0_n_n_0_1_1200_wf
def scatter_S50000x200_S850000x1_S850000x200_1_0_0_1 : ScatterDims S50000x200 S850000x1 S850000x200 where
  updateWindowDims := [1]
  insertedWindowDims := [0]
  scatterDimsToOperandDims := [0]
  indexVectorDim := 1
  wf := scatter_S50000x200_S850000x1_S850000x200_1_0_0_1_wf

class Facts : Prop extends Facts₀ where

variable [Facts]
-- ==== Proof.KHost.lean ====
/-
  The host side of `Kernel`'s run: @main is three host operations (the two weight matrices laid side by side, and the
  two changes of float format), ONE region (the blocked matrix product), and eighty host operations after it (the two
  column slices of the product, the graph normalisation, and per output a gather, a scaling, a scatter-add and a bias).
  Here: the buffer contents when the region is entered (`V0`, `V`), @main read as "the earlier lines, the region, the
  later lines" (`hmain`), what the later lines may touch (`tail_sub`, `tail_fresh`, `tail_keeps`), and that no line,
  earlier or later, writes an argument array (`V_arg`, `W_arg`).
  The later lines write eighty result buffers, all distinct from the six arguments and from the region's three arrays:
  that is decided once, on the list of those buffers (`tailOuts`), not line by line.
-/
import proofs.«111632_j49435073577269_1_alg».proof.Proof.Gen.Kernel.Launch
import Idealize.ShloMosaic.Lib.Pipeline.FrameSuffix
import Idealize.ShloMosaic.Lib.StableHlo.Run

set_option maxRecDepth 16384

noncomputable section

namespace Cert.Kernel.Host

open Idealize.ShloMosaic Idealize.ShloMosaic.TcCoe
open Idealize.SL Idealize.SL.RA Idealize.SL.Sem
open Cert.Kernel Cert.Kernel.Gen
open Idealize.ShloMosaic.Pipeline (Dat Cfg)

variable {F : FTy → Type} [FloatOps F]
variable (m : (ℓ : Loc nD τ sig) → Buf (Elt F) ℓ)

/-- The three stretches of host operations after the region, in order. -/
abbrev tailOps : List (List (HloOp τ sig (Elt F))) := [hostOps1, hostOps1_1, hostOps1_2]

/-- Core `c`'s buffer contents when the region is entered: the launch memory after the three earlier lines. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- No host operation allocates. -/
theorem hostOps0_fresh : (hostOps0 : List (HloOp τ sig (Elt F))).Forall fun op => op.fresh = ∅ := by
  simp only [List.Forall]; repeat' constructor
set_option maxHeartbeats 1000000 in
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
set_option maxHeartbeats 4000000 in
theorem hostOps1_2_fresh : (hostOps1_2 : List (HloOp τ sig (Elt F))).Forall fun op => op.fresh = ∅ := by
  simp only [List.Forall]; repeat' constructor

set_option maxHeartbeats 8000000 in
/-- @main is the earlier lines, the region, the later lines: it reduces to the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [hostOps0] tailOps (by simp only [List.Forall]; exact hostOps0_sub)
    (by simp only [List.Forall]; exact hostOps0_fresh) main_chain

/-- The later lines touch unscoped TensorCore buffers only: the region's arrays and the buffers that bypass it. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- They allocate nothing. -/
theorem tail_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- The result buffers of the eighty later lines, in order. -/
def tailOuts : List (Ref sig .tc) :=
  [main_v4, main_v5, main_v6, main_v7, main_v8, main_v9, main_v10, main_v11, main_v12, main_cst, main_v13, main_cst_0, main_v14,
   main_v15, main_v16, main_cst_1, main_v17, main_v18, main_v19, main_cst_2,
   main_call0_v0, main_call0_v1, main_v20,
   main_c, main_v21, main_v22, main_c_3, main_v23, main_v24, main_v25, main_v26, main_v27, main_c_4, main_v28, main_v29, main_c_5,
   main_v30, main_v31, main_v32, main_v33, main_v34, main_v35, main_c_6, main_v36, main_v37, main_c_7, main_v38, main_v39, main_v40,
   main_v41, main_v42, main_v43, main_v44, main_v45, main_cst_8, main_v46, main_v47, main_v48, main_v49, main_v50, main_v51,
   main_c_9, main_v52, main_v53, main_c_10, main_v54, main_v55, main_v56, main_v57, main_v58, main_v59, main_v60, main_v61,
   main_cst_11, main_v62, main_v63, main_v64, main_v65, main_v66, main_v67]

set_option maxHeartbeats 4000000 in
/-- Every later line writes one of them. -/
theorem tail_writes : (List.flatten (tailOps : List (List (HloOp τ sig (Elt F))))).Forall fun op =>
    op.writes ⊆ (tailOuts.map (Proc.devRef (τ := τ) .tc)).toFinset := by
  simp only [hostOps1, hostOps1_1, hostOps1_2, List.flatten_cons, List.flatten_nil, List.append_nil, List.cons_append,
    List.nil_append, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by simp only [tailOuts, List.mem_cons, true_or, or_true])

/-- The three earlier lines write `main_v0`, `main_v1`, `main_v2`. -/
theorem head_writes : (List.flatten [(hostOps0 : List (HloOp τ sig (Elt F)))]).Forall fun op =>
    op.writes ⊆ (([main_v0, main_v1, main_v2] : List (Ref sig .tc)).map (Proc.devRef (τ := τ) .tc)).toFinset := by
  simp only [hostOps0, List.flatten_cons, List.flatten_nil, List.append_nil, List.cons_append,
    List.nil_append, List.Forall, StableHlo.nullary_writes, StableHlo.unary_writes, StableHlo.binary_writes,
    Finset.singleton_subset_iff, List.mem_toFinset]
  repeat' apply And.intro
  all_goals exact List.mem_map_of_mem (by simp only [List.mem_cons, true_or, or_true])

/-- A buffer no earlier line writes is found by the region as launched. -/
theorem V_of_not_head (c : Dev nD) (b : Ref sig .tc) (hb : b ∉ ([main_v0, main_v1, main_v2] : List (Ref sig .tc))) :
    V m c b = m ((c : Thread nD τ).loc b) :=
  StableHlo.after_of_writes_sub _ _ head_writes hb

/-- No later line writes an array of the region. -/
theorem tail_keeps : ∀ ops ∈ (tailOps : List (List (HloOp τ sig (Elt F)))), ∀ op ∈ ops,
    ∀ w, Proc.devRef .tc (Pipeline.arrRef spec0 w) ∉ op.writes := by
  intro ops hops op hop w hw
  have hmem : op ∈ List.flatten (tailOps : List (List (HloOp τ sig (Elt F)))) := List.mem_flatten.mpr ⟨ops, hops, hop⟩
  obtain ⟨y, hy, he⟩ := List.mem_map.mp (List.mem_toFinset.mp ((List.forall_iff_forall_mem.mp tail_writes) op hmem hw))
  have : Pipeline.arrRef spec0 w ∈ tailOuts := Proc.devRef_injective _ he ▸ hy
  revert this
  fin_cases w <;> decide

/-- A buffer that is no array of the region and that no later line writes ends as the region found it. -/
theorem W_of_not_tail {U' : Type} [URA U'] (dats : (p : Fin 1) → (c : Dev nD) → Dat τ (Elt F) Unit ℕ U' ℕ (cfgs p) c) (c : Dev nD)
    (b : Ref sig .tc) (hb : b ∉ tailOuts) (harr : ∀ w, Pipeline.arrRef spec0 w ≠ b) :
    Pipeline.afterTail₀ cfgs dats 0 (V0 m) tailOps c b = V m c b := by
  unfold Pipeline.afterTail₀
  rw [StableHlo.after_of_writes_sub _ _ tail_writes hb, Pipeline.withArrays_of_ne _ c (V0 m c) _ b harr]

end Cert.Kernel.Host

end
-- ==== Proof.KBody.lean ====
/-
  The region of `Kernel`: a blocked matrix product over a grid of ten points. At point `t` the pipeline hands the
  body rows `5000·t … 5000·t + 4999` of the left matrix (window 0, fetched at every point), the whole right matrix
  (window 1, fetched once, at the first point, and found in place afterwards) and a staging buffer for the same rows of
  the product (window 2, written back at every point). The body loads the two input blocks whole, multiplies them into a
  zero accumulator, and stores the product over the whole output block; it also loads the output block before storing,
  a value it never uses, so the buffer may hold anything when the body starts.
  Here: each window's block at a point (`iblk`), what the output block holds after the body (`outBlk`: the one
  store, covering the block), the body's triple (`sound_kernel`), the proof data of the pipeline (`dats`), and the
  body obligation at every point.
-/
import proofs.«111632_j49435073577269_1_alg».proof.Proof.KHost
import proofs.«111632_j49435073577269_1_alg».proof.Proof.Gen.Kernel.Skeleton
import proofs.«111632_j49435073577269_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Host

variable {F : FTy → Type} [FloatOps F]

local notation "𝕄" => MT nD τ sig Unit (Elt F) ℕ (UR sig nD τ) ℕ

variable (m : (ℓ : Loc nD τ sig) → Buf (Elt F) ℓ)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The left matrix's staging buffer holds its block of rows at every point: it is fetched at every point. -/
theorem before_lhs_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The right matrix's staging buffer holds the whole matrix at every point: fetched at the first point, and at a later
    point the block index has not moved and the body left the buffer as it found it. -/
theorem before_rhs_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves -/

/-- The whole left block, the whole right block, the whole output block. -/
abbrev rLhs : Rect S5000x512 := Rect.unit (s := S5000x512) ![0, 0] S5000x512.size inb_S5000x512_S5000x512_0_0
abbrev rRhs : Rect S512x400 := Rect.unit (s := S512x400) ![0, 0] S512x400.size inb_S512x400_S512x400_0_0
abbrev rOut : Rect S5000x400 := Rect.unit (s := S5000x400) ![0, 0] S5000x400.size inb_S5000x400_S5000x400_0_0

/-- The output block after the body, from the two input blocks: its one store, the product of the two loads. -/
def outBlk (x0 : Vec F S5000x512 .bf16) (x1 : Vec F S512x400 .bf16) : Vec F S5000x400 .f32 :=
  View.canon [⟨rOut, k0_pay1 (View.ld x0 rLhs) (View.ld x1 rRhs)⟩]

/-- The one store covers the output block. -/
theorem cover_out (p0 : Vec F S5000x400 .f32) (y : S5000x400.Idx) :
    ∃ pc ∈ ([⟨rOut, p0⟩] : List (View.Piece (Elt F) S5000x400 .f32)), y ∈ pc.1.set :=
  View.cover_of_tiled [⟨rOut, p0⟩] S5000x400.size (by rfl) y

/-! ## The body's triple -/

set_option maxHeartbeats 1000000 in
/-- The kernel body on whole staging memrefs — the inputs' at contents `x0`, `x1`, the output's at anything — runs to
    the continuation with the inputs' as they were and the output's at `outBlk x0 x1`. -/
theorem sound_kernel (c : Dev nD) (E : Set ℕ) (i : grid0.Coords)
    (arg1 : Memref sig .tc .vmem S5000x512 .bf16) (harg1 : arg1.IsWhole)
    (arg2 : Memref sig .tc .vmem S512x400 .bf16) (harg2 : arg2.IsWhole)
    (arg3 : Memref sig .tc .vmem S5000x400 .f32) (harg3 : arg3.IsWhole)
    (x0 : Vec F S5000x512 .bf16) (x1 : Vec F S512x400 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (outBlk x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The pipeline's proof data -/

/-- The proof data of the pipeline on core `c`: the arrays as the region finds them; after the body at point `t` each
    input's buffer at its block and the output's at the product of the two input blocks; the invariant is the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlk (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_lhs (c : Dev nD) (t : Fin cfg0.N) : (dats m 0 c).after 0 t = iblk m c 0 t := by dsimp only [dats]
theorem after_rhs (c : Dev nD) (t : Fin cfg0.N) : (dats m 0 c).after 1 t = iblk m c 1 t := by dsimp only [dats]
theorem after_out (c : Dev nD) (t : Fin cfg0.N) : (dats m 0 c).after 2 t = outBlk (iblk m c 0 t) (iblk m c 1 t) := by dsimp only [dats]

theorem before_lhs (c : Dev nD) (t : Fin cfg0.N) (d) : (dats m 0 c).before 0 t d = iblk m c 0 t :=
  before_lhs_of m (dats m 0 c) (A_eq m c 0) (after_lhs m c) t d
theorem before_rhs (c : Dev nD) (t : Fin cfg0.N) (d) : (dats m 0 c).before 1 t d = iblk m c 1 t :=
  before_rhs_of m (dats m 0 c) (A_eq m c 1) (after_rhs m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so `sound_kernel` applies; the invariant and the core's
    `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_lhs, before_rhs]
  rw [show (dats m 0 c).Φ t.succ = (dats m 0 c).Φ t.castSucc from rfl,
    show (dats m 0 c).owesAt () t.succ = (dats m 0 c).owesAt () t.castSucc from rfl,
    after_lhs, after_rhs, after_out]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Region

end
-- ==== Proof.KRun.lean ====
/-
  `Kernel`'s run: every weakly fair execution of @main terminates without a fault, the region's three arrays end at what
  the pipeline's proof data computes (the two inputs as found, the product array as the ten write-backs left it), and
  every other unscoped buffer ends at what the later lines compute from the region's exit contents.
  The six argument arrays are none of the region's arrays and no line writes them: they end as launched — the frame.
-/
import proofs.«111632_j49435073577269_1_alg».proof.Proof.KBody
import Idealize.ShloMosaic.Lib.Pipeline.FrameSuffix

set_option maxRecDepth 16384

noncomputable section

namespace Cert.Kernel.Run

open Idealize.ShloMosaic Idealize.ShloMosaic.TcCoe
open Idealize.SL Idealize.SL.RA Idealize.SL.Sem
open Idealize.ShloMosaic.Pipeline (Dat Cfg)
open Cert.Kernel Cert.Kernel.Gen Cert.Kernel.Host Cert.Kernel.Region

variable {F : FTy → Type} [FloatOps F]
variable (m : (ℓ : Loc nD τ sig) → Buf (Elt F) ℓ) (ρ : Dev nD → PrngReg)

set_option backward.isDefEq.respectTransparency.types false in
set_option maxHeartbeats 4000000 in
/-- The run, with the arrays of the region named by the proof data and every other buffer by the later lines. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hΦ := fun _ _ => rfl)

/-- An argument array after the run: no window stages it, no later line writes it, no earlier line wrote it. -/
theorem arg_kept (r : PUnit × MemSt nD τ sig (Elt F))
    (h : Pipeline.FramePost cfgs (dats m) 0 (Pipeline.afterTail₀ cfgs (dats m) 0 (V0 m) tailOps) r) (c : Dev nD)
    (b : Ref sig .tc) (hs : b.isScoped = false) (ha : ∀ w, (spec0 w).arr.view.ref ≠ b) (harr : ∀ w, Pipeline.arrRef spec0 w ≠ b)
    (ht : b ∉ tailOuts) (hh : b ∉ ([main_v0, main_v1, main_v2] : List (Ref sig .tc))) :
    r.2.mem ((c.tc : Thread nD τ).loc b) = m ((c.tc : Thread nD τ).loc b) :=
  ((h c).2 b (Pipeline.mem_restRefs_of b hs ha)).trans ((W_of_not_tail m (dats m) c b ht harr).trans (V_of_not_head m c b hh))

/-- THE FRAME: the program runs to the end, faults nowhere, and leaves its six argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨arg_kept m r h c main_arg0 (by decide) (by decide) (by decide) (by decide) (by decide),
     arg_kept m r h c main_arg1 (by decide) (by decide) (by decide) (by decide) (by decide),
     arg_kept m r h c main_arg2 (by decide) (by decide) (by decide) (by decide) (by decide),
     arg_kept m r h c main_arg3 (by decide) (by decide) (by decide) (by decide) (by decide),
     arg_kept m r h c main_arg4 (by decide) (by decide) (by decide) (by decide) (by decide),
     arg_kept m r h c main_arg5 (by decide) (by decide) (by decide) (by decide) (by decide)⟩) (run_main m ρ)

end Cert.Kernel.Run

end
-- ==== Proof.KIHost.lean ====
/-
  The host side of `KernelIdeal`'s run: @main is three host operations (the two weight matrices laid side by side, and the
  two changes of float format), ONE region (the blocked matrix product), and eighty host operations after it (the two
  column slices of the product, the graph normalisation, and per output a gather, a scaling, a scatter-add and a bias).
  Here: the buffer contents when the region is entered (`V0`, `V`), @main read as "the earlier lines, the region, the
  later lines" (`hmain`), what the later lines may touch (`tail_sub`, `tail_fresh`, `tail_keeps`), and that no line,
  earlier or later, writes an argument array (`V_arg`, `W_arg`).
  The later lines write eighty result buffers, all distinct from the six arguments and from the region's three arrays:
  that is decided once, on the list of those buffers (`tailOuts`), not line by line.
-/
import proofs.«111632_j49435073577269_1_alg».proof.Proof.Gen.KernelIdeal.Launch
import Idealize.ShloMosaic.Lib.Pipeline.FrameSuffix
import Idealize.ShloMosaic.Lib.StableHlo.Run

set_option maxRecDepth 16384

noncomputable section

namespace Cert.KernelIdeal.Host

open Idealize.ShloMosaic Idealize.ShloMosaic.TcCoe
open Idealize.SL Idealize.SL.RA Idealize.SL.Sem
open Cert.KernelIdeal Cert.KernelIdeal.Gen
open Idealize.ShloMosaic.Pipeline (Dat Cfg)

variable {F : FTy → Type} [FloatOps F]
variable (m : (ℓ : Loc nD τ sig) → Buf (Elt F) ℓ)

/-- The three stretches of host operations after the region, in order. -/
abbrev tailOps : List (List (HloOp τ sig (Elt F))) := [hostOps1, hostOps1_1, hostOps1_2]

/-- Core `c`'s buffer contents when the region is entered: the launch memory after the three earlier lines. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- No host operation allocates. -/
theorem hostOps0_fresh : (hostOps0 : List (HloOp τ sig (Elt F))).Forall fun op => op.fresh = ∅ := by
  simp only [List.Forall]; repeat' constructor
set_option maxHeartbeats 1000000 in
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
set_option maxHeartbeats 4000000 in
theorem hostOps1_2_fresh : (hostOps1_2 : List (HloOp τ sig (Elt F))).Forall fun op => op.fresh = ∅ := by
  simp only [List.Forall]; repeat' constructor

set_option maxHeartbeats 8000000 in
/-- @main is the earlier lines, the region, the later lines: it reduces to the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [hostOps0] tailOps (by simp only [List.Forall]; exact hostOps0_sub)
    (by simp only [List.Forall]; exact hostOps0_fresh) main_chain

/-- The later lines touch unscoped TensorCore buffers only: the region's arrays and the buffers that bypass it. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- They allocate nothing. -/
theorem tail_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- The result buffers of the eighty later lines, in order. -/
def tailOuts : List (Ref sig .tc) :=
  [main_v4, main_v5, main_v6, main_v7, main_v8, main_v9, main_v10, main_v11, main_v12, main_cst, main_v13, main_cst_0, main_v14,
   main_v15, main_v16, main_cst_1, main_v17, main_v18, main_v19, main_cst_2,
   main_call0_v0, main_call0_v1, main_v20,
   main_c, main_v21, main_v22, main_c_3, main_v23, main_v24, main_v25, main_v26, main_v27, main_c_4, main_v28, main_v29, main_c_5,
   main_v30, main_v31, main_v32, main_v33, main_v34, main_v35, main_c_6, main_v36, main_v37, main_c_7, main_v38, main_v39, main_v40,
   main_v41, main_v42, main_v43, main_v44, main_v45, main_cst_8, main_v46, main_v47, main_v48, main_v49, main_v50, main_v51,
   main_c_9, main_v52, main_v53, main_c_10, main_v54, main_v55, main_v56, main_v57, main_v58, main_v59, main_v60, main_v61,
   main_cst_11, main_v62, main_v63, main_v64, main_v65, main_v66, main_v67]

set_option maxHeartbeats 4000000 in
/-- Every later line writes one of them. -/
theorem tail_writes : (List.flatten (tailOps : List (List (HloOp τ sig (Elt F))))).Forall fun op =>
    op.writes ⊆ (tailOuts.map (Proc.devRef (τ := τ) .tc)).toFinset := by
  simp only [hostOps1, hostOps1_1, hostOps1_2, List.flatten_cons, List.flatten_nil, List.append_nil, List.cons_append,
    List.nil_append, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by simp only [tailOuts, List.mem_cons, true_or, or_true])

/-- The three earlier lines write `main_v0`, `main_v1`, `main_v2`. -/
theorem head_writes : (List.flatten [(hostOps0 : List (HloOp τ sig (Elt F)))]).Forall fun op =>
    op.writes ⊆ (([main_v0, main_v1, main_v2] : List (Ref sig .tc)).map (Proc.devRef (τ := τ) .tc)).toFinset := by
  simp only [hostOps0, List.flatten_cons, List.flatten_nil, List.append_nil, List.cons_append,
    List.nil_append, List.Forall, StableHlo.nullary_writes, StableHlo.unary_writes, StableHlo.binary_writes,
    Finset.singleton_subset_iff, List.mem_toFinset]
  repeat' apply And.intro
  all_goals exact List.mem_map_of_mem (by simp only [List.mem_cons, true_or, or_true])

/-- A buffer no earlier line writes is found by the region as launched. -/
theorem V_of_not_head (c : Dev nD) (b : Ref sig .tc) (hb : b ∉ ([main_v0, main_v1, main_v2] : List (Ref sig .tc))) :
    V m c b = m ((c : Thread nD τ).loc b) :=
  StableHlo.after_of_writes_sub _ _ head_writes hb

/-- No later line writes an array of the region. -/
theorem tail_keeps : ∀ ops ∈ (tailOps : List (List (HloOp τ sig (Elt F)))), ∀ op ∈ ops,
    ∀ w, Proc.devRef .tc (Pipeline.arrRef spec0 w) ∉ op.writes := by
  intro ops hops op hop w hw
  have hmem : op ∈ List.flatten (tailOps : List (List (HloOp τ sig (Elt F)))) := List.mem_flatten.mpr ⟨ops, hops, hop⟩
  obtain ⟨y, hy, he⟩ := List.mem_map.mp (List.mem_toFinset.mp ((List.forall_iff_forall_mem.mp tail_writes) op hmem hw))
  have : Pipeline.arrRef spec0 w ∈ tailOuts := Proc.devRef_injective _ he ▸ hy
  revert this
  fin_cases w <;> decide

/-- A buffer that is no array of the region and that no later line writes ends as the region found it. -/
theorem W_of_not_tail {U' : Type} [URA U'] (dats : (p : Fin 1) → (c : Dev nD) → Dat τ (Elt F) Unit ℕ U' ℕ (cfgs p) c) (c : Dev nD)
    (b : Ref sig .tc) (hb : b ∉ tailOuts) (harr : ∀ w, Pipeline.arrRef spec0 w ≠ b) :
    Pipeline.afterTail₀ cfgs dats 0 (V0 m) tailOps c b = V m c b := by
  unfold Pipeline.afterTail₀
  rw [StableHlo.after_of_writes_sub _ _ tail_writes hb, Pipeline.withArrays_of_ne _ c (V0 m c) _ b harr]

end Cert.KernelIdeal.Host

end
-- ==== Proof.KIBody.lean ====
/-
  The region of `KernelIdeal`: a blocked matrix product over a grid of ten points. At point `t` the pipeline hands the
  body rows `5000·t … 5000·t + 4999` of the left matrix (window 0, fetched at every point), the whole right matrix
  (window 1, fetched once, at the first point, and found in place afterwards) and a staging buffer for the same rows of
  the product (window 2, written back at every point). The body loads the two input blocks whole, multiplies them into a
  zero accumulator, and stores the product over the whole output block; it also loads the output block before storing,
  a value it never uses, so the buffer may hold anything when the body starts.
  Here: each window's block at a point (`iblk`), what the output block holds after the body (`outBlk`: the one
  store, covering the block), the body's triple (`sound_kernel`), the proof data of the pipeline (`dats`), and the
  body obligation at every point.
-/
import proofs.«111632_j49435073577269_1_alg».proof.Proof.KIHost
import proofs.«111632_j49435073577269_1_alg».proof.Proof.Gen.KernelIdeal.Skeleton
import proofs.«111632_j49435073577269_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Host

variable {F : FTy → Type} [FloatOps F]

local notation "𝕄" => MT nD τ sig Unit (Elt F) ℕ (UR sig nD τ) ℕ

variable (m : (ℓ : Loc nD τ sig) → Buf (Elt F) ℓ)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The left matrix's staging buffer holds its block of rows at every point: it is fetched at every point. -/
theorem before_lhs_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The right matrix's staging buffer holds the whole matrix at every point: fetched at the first point, and at a later
    point the block index has not moved and the body left the buffer as it found it. -/
theorem before_rhs_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves -/

/-- The whole left block, the whole right block, the whole output block. -/
abbrev rLhs : Rect S5000x512 := Rect.unit (s := S5000x512) ![0, 0] S5000x512.size inb_S5000x512_S5000x512_0_0
abbrev rRhs : Rect S512x400 := Rect.unit (s := S512x400) ![0, 0] S512x400.size inb_S512x400_S512x400_0_0
abbrev rOut : Rect S5000x400 := Rect.unit (s := S5000x400) ![0, 0] S5000x400.size inb_S5000x400_S5000x400_0_0

/-- The output block after the body, from the two input blocks: its one store, the product of the two loads. -/
def outBlk (x0 : Vec F S5000x512 .bf16) (x1 : Vec F S512x400 .bf16) : Vec F S5000x400 .f32 :=
  View.canon [⟨rOut, k0_pay1 (View.ld x0 rLhs) (View.ld x1 rRhs)⟩]

/-- The one store covers the output block. -/
theorem cover_out (p0 : Vec F S5000x400 .f32) (y : S5000x400.Idx) :
    ∃ pc ∈ ([⟨rOut, p0⟩] : List (View.Piece (Elt F) S5000x400 .f32)), y ∈ pc.1.set :=
  View.cover_of_tiled [⟨rOut, p0⟩] S5000x400.size (by rfl) y

/-! ## The body's triple -/

set_option maxHeartbeats 1000000 in
/-- The kernel body on whole staging memrefs — the inputs' at contents `x0`, `x1`, the output's at anything — runs to
    the continuation with the inputs' as they were and the output's at `outBlk x0 x1`. -/
theorem sound_kernel (c : Dev nD) (E : Set ℕ) (i : grid0.Coords)
    (arg1 : Memref sig .tc .vmem S5000x512 .bf16) (harg1 : arg1.IsWhole)
    (arg2 : Memref sig .tc .vmem S512x400 .bf16) (harg2 : arg2.IsWhole)
    (arg3 : Memref sig .tc .vmem S5000x400 .f32) (harg3 : arg3.IsWhole)
    (x0 : Vec F S5000x512 .bf16) (x1 : Vec F S512x400 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (outBlk x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The pipeline's proof data -/

/-- The proof data of the pipeline on core `c`: the arrays as the region finds them; after the body at point `t` each
    input's buffer at its block and the output's at the product of the two input blocks; the invariant is the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlk (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_lhs (c : Dev nD) (t : Fin cfg0.N) : (dats m 0 c).after 0 t = iblk m c 0 t := by dsimp only [dats]
theorem after_rhs (c : Dev nD) (t : Fin cfg0.N) : (dats m 0 c).after 1 t = iblk m c 1 t := by dsimp only [dats]
theorem after_out (c : Dev nD) (t : Fin cfg0.N) : (dats m 0 c).after 2 t = outBlk (iblk m c 0 t) (iblk m c 1 t) := by dsimp only [dats]

theorem before_lhs (c : Dev nD) (t : Fin cfg0.N) (d) : (dats m 0 c).before 0 t d = iblk m c 0 t :=
  before_lhs_of m (dats m 0 c) (A_eq m c 0) (after_lhs m c) t d
theorem before_rhs (c : Dev nD) (t : Fin cfg0.N) (d) : (dats m 0 c).before 1 t d = iblk m c 1 t :=
  before_rhs_of m (dats m 0 c) (A_eq m c 1) (after_rhs m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so `sound_kernel` applies; the invariant and the core's
    `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_lhs, before_rhs]
  rw [show (dats m 0 c).Φ t.succ = (dats m 0 c).Φ t.castSucc from rfl,
    show (dats m 0 c).owesAt () t.succ = (dats m 0 c).owesAt () t.castSucc from rfl,
    after_lhs, after_rhs, after_out]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Region

end
-- ==== Proof.KIRun.lean ====
/-
  `KernelIdeal`'s run: every weakly fair execution of @main terminates without a fault, the region's three arrays end at what
  the pipeline's proof data computes (the two inputs as found, the product array as the ten write-backs left it), and
  every other unscoped buffer ends at what the later lines compute from the region's exit contents.
  The six argument arrays are none of the region's arrays and no line writes them: they end as launched — the frame.
-/
import proofs.«111632_j49435073577269_1_alg».proof.Proof.KIBody
import Idealize.ShloMosaic.Lib.Pipeline.FrameSuffix

set_option maxRecDepth 16384

noncomputable section

namespace Cert.KernelIdeal.Run

open Idealize.ShloMosaic Idealize.ShloMosaic.TcCoe
open Idealize.SL Idealize.SL.RA Idealize.SL.Sem
open Idealize.ShloMosaic.Pipeline (Dat Cfg)
open Cert.KernelIdeal Cert.KernelIdeal.Gen Cert.KernelIdeal.Host Cert.KernelIdeal.Region

variable {F : FTy → Type} [FloatOps F]
variable (m : (ℓ : Loc nD τ sig) → Buf (Elt F) ℓ) (ρ : Dev nD → PrngReg)

set_option backward.isDefEq.respectTransparency.types false in
set_option maxHeartbeats 4000000 in
/-- The run, with the arrays of the region named by the proof data and every other buffer by the later lines. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hΦ := fun _ _ => rfl)

/-- An argument array after the run: no window stages it, no later line writes it, no earlier line wrote it. -/
theorem arg_kept (r : PUnit × MemSt nD τ sig (Elt F))
    (h : Pipeline.FramePost cfgs (dats m) 0 (Pipeline.afterTail₀ cfgs (dats m) 0 (V0 m) tailOps) r) (c : Dev nD)
    (b : Ref sig .tc) (hs : b.isScoped = false) (ha : ∀ w, (spec0 w).arr.view.ref ≠ b) (harr : ∀ w, Pipeline.arrRef spec0 w ≠ b)
    (ht : b ∉ tailOuts) (hh : b ∉ ([main_v0, main_v1, main_v2] : List (Ref sig .tc))) :
    r.2.mem ((c.tc : Thread nD τ).loc b) = m ((c.tc : Thread nD τ).loc b) :=
  ((h c).2 b (Pipeline.mem_restRefs_of b hs ha)).trans ((W_of_not_tail m (dats m) c b ht harr).trans (V_of_not_head m c b hh))

/-- THE FRAME: the program runs to the end, faults nowhere, and leaves its six argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨arg_kept m r h c main_arg0 (by decide) (by decide) (by decide) (by decide) (by decide),
     arg_kept m r h c main_arg1 (by decide) (by decide) (by decide) (by decide) (by decide),
     arg_kept m r h c main_arg2 (by decide) (by decide) (by decide) (by decide) (by decide),
     arg_kept m r h c main_arg3 (by decide) (by decide) (by decide) (by decide) (by decide),
     arg_kept m r h c main_arg4 (by decide) (by decide) (by decide) (by decide) (by decide),
     arg_kept m r h c main_arg5 (by decide) (by decide) (by decide) (by decide) (by decide)⟩) (run_main m ρ)

end Cert.KernelIdeal.Run

end
-- ==== Proof.KIPayload.lean ====
/-
  The kernel body's arithmetic at an index, on the extended reals: the product of a 5000×512 block and the 512×400
  matrix into a zero accumulator has, at row `r` and column `c`, the value  Σ_{k<512} block[r,k] · matrix[k,c].
  The two shape casts in front of the product cast a shape to itself; the accumulator is the zero word.
-/
import proofs.«111632_j49435073577269_1_alg».proof.Proof.Gen.KernelIdeal.Skeleton
import Idealize.ShloMosaic.PureOps.Ideal.Laws
import Idealize.ShloMosaic.Lib.ValueIdx
import Idealize.ShloMosaic.Lib.Pipeline.Value

set_option maxRecDepth 16384

noncomputable section

namespace Cert.KernelIdeal.BlockProduct

open Cert.KernelIdeal Cert.KernelIdeal.Gen Idealize.ShloMosaic Idealize.ShloMosaic.ValueIdx

theorem lhs_row (i : S5000x400.Idx) (q : dot_S5000x512_S512x400_S5000x400_1_0_0_1_n_n.contr.Idx) : (dot_S5000x512_S512x400_S5000x400_1_0_0_1_n_n.lhsIdx i q 0).val = (i 0).val := by
  unfold DotDims.lhsIdx
  rw [dif_neg (show ¬(0 : Fin S5000x512.rank) ∈ dot_S5000x512_S512x400_S5000x400_1_0_0_1_n_n.lhsBatch by decide), dif_pos (show (0 : Fin S5000x512.rank) ∈ dot_S5000x512_S512x400_S5000x400_1_0_0_1_n_n.lhsNonContracting by decide)]
  rfl
theorem lhs_k (i : S5000x400.Idx) (q : dot_S5000x512_S512x400_S5000x400_1_0_0_1_n_n.contr.Idx) : (dot_S5000x512_S512x400_S5000x400_1_0_0_1_n_n.lhsIdx i q 1).val = (q ⟨0, by decide⟩).val :=
  dot_S5000x512_S512x400_S5000x400_1_0_0_1_n_n.lhsIdx_val_of_single rfl i q
theorem rhs_k (i : S5000x400.Idx) (q : dot_S5000x512_S512x400_S5000x400_1_0_0_1_n_n.contr.Idx) : (dot_S5000x512_S512x400_S5000x400_1_0_0_1_n_n.rhsIdx i q 0).val = (q ⟨0, by decide⟩).val :=
  dot_S5000x512_S512x400_S5000x400_1_0_0_1_n_n.rhsIdx_val_of_single rfl i q
theorem rhs_col (i : S5000x400.Idx) (q : dot_S5000x512_S512x400_S5000x400_1_0_0_1_n_n.contr.Idx) : (dot_S5000x512_S512x400_S5000x400_1_0_0_1_n_n.rhsIdx i q 1).val = (i 1).val := by
  unfold DotDims.rhsIdx
  rw [dif_neg (show ¬(1 : Fin S512x400.rank) ∈ dot_S5000x512_S512x400_S5000x400_1_0_0_1_n_n.rhsBatch by decide), dif_pos (show (1 : Fin S512x400.rank) ∈ dot_S5000x512_S512x400_S5000x400_1_0_0_1_n_n.rhsNonContracting by decide)]
  rfl

/-- The record's sum over its contraction index is the sum over `k < 512` of left[row, k] · right[k, column]. -/
theorem sum_contr (l : S5000x512.Idx → EReal) (r : S512x400.Idx → EReal) (i : S5000x400.Idx) :
    ∑ q : dot_S5000x512_S512x400_S5000x400_1_0_0_1_n_n.contr.Idx, l (dot_S5000x512_S512x400_S5000x400_1_0_0_1_n_n.lhsIdx i q) * r (dot_S5000x512_S512x400_S5000x400_1_0_0_1_n_n.rhsIdx i q) = ∑ k : Fin 512, l (ix2 (i 0) k) * r (ix2 k (i 1)) := by
  rw [← Equiv.sum_comp (ValueIdx.contrEquiv1 dot_S5000x512_S512x400_S5000x400_1_0_0_1_n_n 512 rfl rfl).symm]
  refine Finset.sum_congr rfl fun k _ => ?_
  have hk := ValueIdx.contrEquiv1_symm_val dot_S5000x512_S512x400_S5000x400_1_0_0_1_n_n 512 rfl rfl k
  have el : dot_S5000x512_S512x400_S5000x400_1_0_0_1_n_n.lhsIdx i ((ValueIdx.contrEquiv1 dot_S5000x512_S512x400_S5000x400_1_0_0_1_n_n 512 rfl rfl).symm k) = ix2 (i 0) k := funext fun a => Fin.ext (by
    match a with
    | ⟨0, _⟩ => exact lhs_row _ _
    | ⟨1, _⟩ => exact (lhs_k _ _).trans hk)
  have er : dot_S5000x512_S512x400_S5000x400_1_0_0_1_n_n.rhsIdx i ((ValueIdx.contrEquiv1 dot_S5000x512_S512x400_S5000x400_1_0_0_1_n_n 512 rfl rfl).symm k) = ix2 k (i 1) := funext fun a => Fin.ext (by
    match a with
    | ⟨0, _⟩ => exact (rhs_k _ _).trans hk
    | ⟨1, _⟩ => exact rhs_col _ _)
  exact congrArg₂ (· * ·) (congrArg l el) (congrArg r er)

/-- The body's one payload at row `y 0`, column `y 1`. -/
theorem payload_apply (xb : Vec Ideal S5000x512 .bf16) (wb : Vec Ideal S512x400 .bf16) (y : S5000x400.Idx) :
    k0_pay1 (F := Ideal) xb wb y = ∑ k : Fin 512, xb (ix2 (y 0) k) * wb (ix2 k (y 1)) := by
  unfold k0_pay1
  simp only [matmul]
  rw [shapeCast_self, shapeCast_self, Ideal.matmul_constant_zero_apply]
  exact sum_contr xb wb y

end Cert.KernelIdeal.BlockProduct

end
-- ==== Proof.Product.lean ====
/-
  The product of a 50000×512 matrix `X` with a 512×400 matrix `W`, entry by entry on the extended reals,
      (X·W)[r,c] = Σ_{k<512} X[r,k] · W[k,c],
  and the one law this certificate rests on: when `W` is two 512×200 matrices `W₁`, `W₂` laid side by side, columns
  0…199 of `X·W` are `X·W₁` and columns 200…399 are `X·W₂`. Each entry of the product reads one column of `W`, and a
  column of `W` is a column of `W₁` or of `W₂`; the two sums have the same terms, so nothing is rearranged and no
  finiteness is needed.
-/
import Idealize.ShloMosaic.PureOps.Ideal.Laws
import Idealize.ShloMosaic.Lib.ValueIdx
import Idealize.ShloMosaic.Lib.Pipeline.Value

set_option maxRecDepth 16384

noncomputable section

namespace Cert.Product

open Idealize.ShloMosaic Idealize.ShloMosaic.ValueIdx

abbrev SX : Shape := ⟨2, ![50000, 512]⟩
abbrev SW : Shape := ⟨2, ![512, 400]⟩
abbrev SWh : Shape := ⟨2, ![512, 200]⟩
abbrev SO : Shape := ⟨2, ![50000, 400]⟩
abbrev SOh : Shape := ⟨2, ![50000, 200]⟩

/-- `X·W` for a right matrix of 400 columns. -/
def prod (X : SX.Idx → EReal) (W : SW.Idx → EReal) : SO.Idx → EReal :=
  fun j => ∑ k : Fin 512, X (ix2 (j 0) k) * W (ix2 k (j 1))

/-- `X·W` for a right matrix of 200 columns. -/
def prodHalf (X : SX.Idx → EReal) (W : SWh.Idx → EReal) : SOh.Idx → EReal :=
  fun j => ∑ k : Fin 512, X (ix2 (j 0) k) * W (ix2 k (j 1))

/-- Columns 0…199 of `X·[W₁ | W₂]` are `X·W₁`. -/
theorem cols_left (X : SX.Idx → EReal) (W₁ W₂ : SWh.Idx → EReal) (hcat : Shape.Concatenates [SWh, SWh] SW 1)
    (hsl : SO.Slices ![0, 0] SOh) :
    extractStridedSlice SOh ![0, 0] (prod X (concatenate SW 1 [⟨SWh, W₁⟩, ⟨SWh, W₂⟩] hcat)) hsl = prodHalf X W₁ := by
  funext i
  have h0 : (i 0).val < 50000 := idx2_lt0 i
  have h1 : (i 1).val < 200 := idx2_lt1 i
  rw [extractStridedSlice_apply ![0, 0] _ hsl i (ix2 (⟨(i 0).val, h0⟩ : Fin 50000) (⟨(i 1).val, by omega⟩ : Fin 400))
    (fun a => by match a with
      | ⟨0, _⟩ => show (i 0).val = 0 + (i 0).val; omega
      | ⟨1, _⟩ => show (i 1).val = 0 + (i 1).val; omega)]
  unfold prod prodHalf
  refine Finset.sum_congr rfl fun k _ => ?_
  refine congrArg₂ (· * ·) rfl ?_
  exact concatenate_pair_apply_left (t := SW) (s₁ := SWh) (s₂ := SWh) (1 : Fin 2) W₁ W₂ hcat
    (ix2 k (⟨(i 1).val, by omega⟩ : Fin 400)) rfl (ix2 k (i 1))
    (fun b => by match b with
      | ⟨0, _⟩ => rfl
      | ⟨1, _⟩ => rfl)

/-- Columns 200…399 of `X·[W₁ | W₂]` are `X·W₂`. -/
theorem cols_right (X : SX.Idx → EReal) (W₁ W₂ : SWh.Idx → EReal) (hcat : Shape.Concatenates [SWh, SWh] SW 1)
    (hsl : SO.Slices ![0, 200] SOh) :
    extractStridedSlice SOh ![0, 200] (prod X (concatenate SW 1 [⟨SWh, W₁⟩, ⟨SWh, W₂⟩] hcat)) hsl = prodHalf X W₂ := by
  funext i
  have h0 : (i 0).val < 50000 := idx2_lt0 i
  have h1 : (i 1).val < 200 := idx2_lt1 i
  rw [extractStridedSlice_apply ![0, 200] _ hsl i (ix2 (⟨(i 0).val, h0⟩ : Fin 50000) (⟨200 + (i 1).val, by omega⟩ : Fin 400))
    (fun a => by match a with
      | ⟨0, _⟩ => show (i 0).val = 0 + (i 0).val; omega
      | ⟨1, _⟩ => show 200 + (i 1).val = 200 + (i 1).val; rfl)]
  unfold prod prodHalf
  refine Finset.sum_congr rfl fun k _ => ?_
  refine congrArg₂ (· * ·) rfl ?_
  exact concatenate_pair_apply_right (t := SW) (s₁ := SWh) (s₂ := SWh) (1 : Fin 2) W₁ W₂ hcat
    (ix2 k (⟨200 + (i 1).val, by omega⟩ : Fin 400)) rfl rfl (ix2 k (i 1))
    (fun b hb => by match b with
      | ⟨0, _⟩ => rfl
      | ⟨1, _⟩ => exact absurd rfl hb)
    (Nat.add_comm (i 1).val 200 : (i 1).val + 200 = 200 + (i 1).val)

end Cert.Product

end
-- ==== Proof.KIFinal.lean ====
/-
  The product array after the region, on the extended reals. At point `t` the body leaves, at row `r` and column `c` of
  its output block,  Σ_{k<512} (left block)[r,k] · (right matrix)[k,c];  the left block's row `r` is row `5000·t + r` of
  the left array, so what point `t` writes back is rows `5000·t … 5000·t + 4999` of the whole product `X·W`
  (`Cert.Product.prod`). The ten blocks tile the 50000 rows (row `r` lies in block `r / 5000`), so the array ends at
  `X·W`. The region finds `X` and `W` as the earlier lines left them: the first argument, and the two weight matrices
  side by side, each after a change of float format, which is the identity on the extended reals.
-/
import proofs.«111632_j49435073577269_1_alg».proof.Proof.KIBody
import proofs.«111632_j49435073577269_1_alg».proof.Proof.KIPayload
import proofs.«111632_j49435073577269_1_alg».proof.Proof.Product
import Idealize.ShloMosaic.Lib.Pipeline.Value
import Idealize.ShloMosaic.Lib.StableHlo.Run

set_option maxRecDepth 16384

noncomputable section

namespace Cert.KernelIdeal.Final

open Idealize.ShloMosaic Idealize.ShloMosaic.TcCoe Idealize.ShloMosaic.ValueIdx
open Idealize.SL Idealize.SL.RA Idealize.SL.Sem
open Idealize.ShloMosaic.Pipeline (Dat Cfg Window)
open Cert.KernelIdeal Cert.KernelIdeal.Gen Cert.KernelIdeal.Host Cert.KernelIdeal.Region Cert.Product

variable (m : (ℓ : Loc nD τ sig) → Buf (Elt Ideal) ℓ)

theorem zero_off : (![0, 0] : Fin 2 → Nat) = fun _ => 0 := funext fun a => by fin_cases a <;> rfl

/-- The printed index maps over the grid: the left and the output windows move down one block of rows per point, the right
    window stays. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The region's left and right arrays as it finds them, as functions into the extended reals. -/
def lhsArr (c : Dev nD) : S50000x512.Idx → EReal := V m c main_v1
def rhsArr (c : Dev nD) : S512x400.Idx → EReal := V m c main_v2

/-- WHAT POINT `t` WRITES BACK is block `t` of the whole product of the two arrays as the region finds them. -/
theorem flushed_eq (c : Dev nD) (t : Fin cfg0.N) :
    (dats m 0 c).flushed 2 t = ((cfg0.win 2).blk t).view.read (Elt Ideal) (prod (V m c main_v1) (V m c main_v2)) := by
  show (cfg0.win 2).cut (grid0.coords t) ((dats m 0 c).after 2 t) = _
  rw [after_out]
  unfold outBlk
  rw [View.canon_unit_zero zero_off]
  simp only [View.ld_unit_zero (S := S5000x512) zero_off, View.ld_unit_zero (S := S512x400) zero_off]
  obtain ⟨e0, e1, e2, e3, e4, e5⟩ := index_maps t
  funext y
  refine (Cert.KernelIdeal.BlockProduct.payload_apply _ _ y).trans ?_
  show ∑ k : Fin 512, lhsArr m c (((cfg0.win 0).blk t).view.emb (ix2 (y 0) k)) * rhsArr m c (((cfg0.win 1).blk t).view.emb (ix2 k (y 1)))
    = ∑ k : Fin 512, lhsArr m c (ix2 ((((cfg0.win 2).blk t).view.emb y) 0) k) * rhsArr m c (ix2 k ((((cfg0.win 2).blk t).view.emb y) 1))
  refine Finset.sum_congr rfl fun k _ => ?_
  have hl : ((cfg0.win 0).blk t).view.emb (ix2 (y 0) k) = ix2 ((((cfg0.win 2).blk t).view.emb y) 0) k := by
    funext a; apply Fin.ext
    match a with
    | ⟨0, _⟩ => show win0_0.index t (0 : Fin 2) * 5000 + 1 * (y 0).val = win0_2.index t (0 : Fin 2) * 5000 + 1 * (y 0).val; omega
    | ⟨1, _⟩ => show win0_0.index t (1 : Fin 2) * 512 + 1 * k.val = k.val; omega
  have hr : ((cfg0.win 1).blk t).view.emb (ix2 k (y 1)) = ix2 k ((((cfg0.win 2).blk t).view.emb y) 1) := by
    funext a; apply Fin.ext
    match a with
    | ⟨0, _⟩ => show win0_1.index t (0 : Fin 2) * 512 + 1 * k.val = k.val; omega
    | ⟨1, _⟩ => show win0_1.index t (1 : Fin 2) * 400 + 1 * (y 1).val = win0_2.index t (1 : Fin 2) * 400 + 1 * (y 1).val; omega
  exact congrArg₂ (· * ·) (congrArg (lhsArr m c) hl) (congrArg (rhsArr m c) hr)

/-- An index of the product array is in point `t`'s block iff each coordinate is in the block's range on its axis. -/
theorem mem_blk (t : Fin cfg0.N) (i : S50000x400.Idx) :
    i ∈ ((cfg0.win 2).blk t).view.set ↔ ∀ a : Fin 2, win0_2.index t a * S5000x400.size a ≤ (i a).val ∧ (i a).val < win0_2.index t a * S5000x400.size a + S5000x400.size a := by
  show i ∈ ((View.whole main_v3).slice (win0_2.rect t)).set ↔ _
  rw [View.set_slice_whole, Rect.mem_set_unit]
  exact Iff.rfl

/-- Every index of the product array is in some point's block: row `r` in block `r / 5000`. -/
theorem cover (i : S50000x400.Idx) : ∃ t : Fin cfg0.N, (cfg0.win 2).flush t = true ∧ i ∈ ((cfg0.win 2).blk t).view.set := by
  have hi0 : (i 0).val < 50000 := (i 0).isLt
  have hi1 : (i 1).val < 400 := (i 1).isLt
  have hN : (i 0).val / 5000 < cfg0.N := by show _ < grid0.N; rw [N_0]; omega
  obtain ⟨e0, e1, e2, e3, e4, e5⟩ := index_maps ⟨(i 0).val / 5000, hN⟩
  refine ⟨⟨(i 0).val / 5000, hN⟩, flush0_2 _, ?_⟩
  rw [mem_blk]
  intro a
  match a with
  | ⟨0, _⟩ =>
    show win0_2.index ⟨(i 0).val / 5000, hN⟩ (0 : Fin 2) * 5000 ≤ (i 0).val ∧ (i 0).val < win0_2.index ⟨(i 0).val / 5000, hN⟩ (0 : Fin 2) * 5000 + 5000
    have : (⟨(i 0).val / 5000, hN⟩ : Fin cfg0.N).val = (i 0).val / 5000 := rfl
    omega
  | ⟨1, _⟩ =>
    show win0_2.index ⟨(i 0).val / 5000, hN⟩ (1 : Fin 2) * 400 ≤ (i 1).val ∧ (i 1).val < win0_2.index ⟨(i 0).val / 5000, hN⟩ (1 : Fin 2) * 400 + 400
    omega

/-- THE PRODUCT ARRAY after the run is the whole product of the two arrays as the region finds them. -/
theorem final (c : Dev nD) : (dats m 0 c).arrAt 2 cfg0.N = prod (V m c main_v1) (V m c main_v2) :=
  (dats m 0 c).arrAt_eq_of_cover 2 (prod (V m c main_v1) (V m c main_v2)) (fun t _ => flushed_eq m c t) cover

/-- The region finds the first argument as its left array. -/
theorem V_lhs (c : Dev nD) : (V m c main_v1 : S50000x512.Idx → EReal) = m ((c : Thread nD τ).loc main_arg0) := by
  show StableHlo.after hostOps0 (fun b => m (c, b)) (Proc.devRef .tc main_v1) = _
  after_results
  rfl

/-- The region finds the two weight matrices, side by side, as its right array. -/
theorem V_rhs (c : Dev nD) : (V m c main_v2 : S512x400.Idx → EReal)
    = concatenate S512x400 1 [⟨S512x200, m ((c : Thread nD τ).loc main_arg1)⟩, ⟨S512x200, m ((c : Thread nD τ).loc main_arg3)⟩] concatenates_S512x200_S512x200_S512x400_d1 := by
  show StableHlo.after hostOps0 (fun b => m (c, b)) (Proc.devRef .tc main_v2) = _
  after_results
  rfl

end Cert.KernelIdeal.Final

end
-- ==== Proof.Aggregation.lean ====
/-
  The graph-convolution aggregation both programs end with, as ONE function of the projected features `h`
  (one row of 200 per node), the bias `b` and the edge list `e` (two rows of 800000 node numbers).
  Every node gets a self-loop: the endpoint lists are a row of `e` followed by 0 … 49999. The degree of a node is the
  number of edges (self-loop included) that END at it, a scatter-add of ones; `dinv` is its inverse square root where the
  degree is positive and 0 elsewhere; an edge's weight is `dinv` at its source times `dinv` at its end. The result at
  node `n` is the bias plus the sum, over the edges ending at `n`, of the edge's weight times row `source` of `h`: a
  gather of rows, a scaling, a scatter-add into zeros, and the bias added to every row.
  A negative node number is first moved up by the number of nodes (`wrap`), as array indexing does.
  Nothing here is opened by the certificate: the two programs are compared by what they feed into this function.
-/
import proofs.«111632_j49435073577269_1_alg».proof.Proof.Gen.ReferenceIdeal

noncomputable section

namespace Cert.Aggregation

open Cert.ReferenceIdeal Cert.ReferenceIdeal.Gen Idealize.ShloMosaic

variable {F : FTy → Type} [FloatOps F]

/-- The edges' sources: row 0 of the edge list, then one self-loop per node. -/
def srcIdx (e : (⟨S2x800000, .i32⟩ : BufTy).Contents (Elt F)) : (⟨S850000, .i32⟩ : BufTy).Contents (Elt F) :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- The edges' ends: row 1 of the edge list, then one self-loop per node. -/
def dstIdx (e : (⟨S2x800000, .i32⟩ : BufTy).Contents (Elt F)) : (⟨S850000, .i32⟩ : BufTy).Contents (Elt F) :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- A negative node number counts from the end. -/
def wrap (i : (⟨S850000, .i32⟩ : BufTy).Contents (Elt F)) : (⟨S850000, .i32⟩ : BufTy).Contents (Elt F) :=
  select (cmpi .slt i (broadcastInDim S850000 ![] bcast_S_S850000 (constantI S_ 32 0#32))) (addi i (broadcastInDim S850000 ![] bcast_S_S850000 (constantI S_ 32 50000#32))) i

/-- A node's degree: how many edges end at it. -/
def degree (e : (⟨S2x800000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32)) (broadcastInDim S850000x1 ![0] bcast_S850000_S850000x1_0 (dstIdx (F := F) e)) (broadcastInDim S850000 ![] bcast_S_S850000 (constant S_ .f32 0x3F800000#32))

/-- The inverse square root of the degree where it is positive, zero elsewhere. -/
def dinv (e : (⟨S2x800000, .i32⟩ : BufTy).Contents (Elt F)) : (⟨S50000, .f32⟩ : BufTy).Contents (Elt F) :=
  select (cmpf (F := F) .ogt (degree e) (broadcastInDim S50000 ![] bcast_S_S50000 (constant S_ .f32 0x00000000#32))) (Host.rsqrt (degree e)) (broadcastInDim S50000 ![] bcast_S_S50000 (id (constant S_ .f32 0x00000000#32)))

/-- An edge's weight: `dinv` at its source times `dinv` at its end. -/
def edgeWeight (e : (⟨S2x800000, .i32⟩ : BufTy).Contents (Elt F)) : (⟨S850000, .f32⟩ : BufTy).Contents (Elt F) :=
  mulf (Host.gather gather_S50000_S850000x1_S850000_n_0_n_n_0_1_1 (dinv e) (broadcastInDim S850000x1 ![0] bcast_S850000_S850000x1_0 (wrap (F := F) (srcIdx (F := F) e)))) (Host.gather gather_S50000_S850000x1_S850000_n_0_n_n_0_1_1 (dinv e) (broadcastInDim S850000x1 ![0] bcast_S850000_S850000x1_0 (wrap (F := F) (dstIdx (F := F) e))))

/-- The aggregation: per node, the bias plus the weighted sum of the source rows of `h` over the edges ending there. -/
def aggregate (h : (⟨S50000x200, .f32⟩ : BufTy).Contents (Elt F)) (b : (⟨S200, .f32⟩ : BufTy).Contents (Elt F))
    (e : (⟨S2x800000, .i32⟩ : BufTy).Contents (Elt F)) : (⟨S50000x200, .f32⟩ : BufTy).Contents (Elt F) :=
  addf (Host.scatterAdd scatter_S50000x200_S850000x1_S850000x200_1_0_0_1 (broadcastInDim S50000x200 ![] bcast_S_S50000x200 (constant S_ .f32 0x00000000#32)) (broadcastInDim S850000x1 ![0] bcast_S850000_S850000x1_0 (dstIdx (F := F) e)) (mulf (Host.gather gather_S50000x200_S850000x1_S850000x200_1_0_n_n_0_1_1200 h (broadcastInDim S850000x1 ![0] bcast_S850000_S850000x1_0 (wrap (F := F) (srcIdx (F := F) e)))) (broadcastInDim S850000x200 ![0, 1] bcast_S850000x1_S850000x200_0_1 (broadcastInDim S850000x1 ![0] bcast_S850000_S850000x1_0 (edgeWeight e))))) (broadcastInDim S50000x200 ![0, 1] bcast_S1x200_S50000x200_0_1 (broadcastInDim S1x200 ![1] bcast_S200_S1x200_1 b))

end Cert.Aggregation

end
-- ==== Proof.KITailMu.lean ====
/-
  The first result of `KernelIdeal` as the later lines compute it, from ANY buffer contents `Vv` at the region's exit: it is
  the graph aggregation (`Cert.Aggregation.aggregate`) of columns 0…199 of the product array, the first bias and the
  edge list. The eighty later lines are read back in one pass; what is left is the aggregation's own term.
-/
import proofs.«111632_j49435073577269_1_alg».proof.Proof.KIHost
import proofs.«111632_j49435073577269_1_alg».proof.Proof.Aggregation
import Idealize.ShloMosaic.Lib.StableHlo.Run

noncomputable section

namespace Cert.KernelIdeal.TailMu

open Idealize.ShloMosaic Idealize.ShloMosaic.TcCoe Idealize.SL.Sem Idealize.ShloMosaic.StableHlo
open Cert.KernelIdeal Cert.KernelIdeal.Gen Cert.KernelIdeal.Host

variable {F : FTy → Type} [FloatOps F]

set_option maxRecDepth 16384 in
set_option maxHeartbeats 64000000 in
theorem result (Vv : Valuation τ sig (Elt F)) :
    StableHlo.after (List.flatten (tailOps : List (List (HloOp τ sig (Elt F))))) Vv (Proc.devRef .tc main_v51)
      = Cert.Aggregation.aggregate (F := F)
          (extractStridedSlice S50000x200 ![0, 0] (Vv (Proc.devRef .tc main_v3)) slices_S50000x400_S50000x200_0_0)
          (Vv (Proc.devRef .tc main_arg2)) (Vv (Proc.devRef .tc main_arg5)) := by
  simp only [tailOps, hostOps1, hostOps1_1, hostOps1_2, List.flatten_cons, List.flatten_nil, List.append_nil,
    List.cons_append, List.nil_append]
  after_results_simp
  rfl

/-- The same with the three buffers it reads named: the product array `O`, the bias `b`, the edge list `e`. -/
theorem result_of (Vv : Valuation τ sig (Elt F)) (O : (⟨S50000x400, .f32⟩ : BufTy).Contents (Elt F))
    (b : (⟨S200, .f32⟩ : BufTy).Contents (Elt F)) (e : (⟨S2x800000, .i32⟩ : BufTy).Contents (Elt F))
    (hO : Vv (Proc.devRef .tc main_v3) = O) (hb : Vv (Proc.devRef .tc main_arg2) = b) (he : Vv (Proc.devRef .tc main_arg5) = e) :
    StableHlo.after (List.flatten (tailOps : List (List (HloOp τ sig (Elt F))))) Vv (Proc.devRef .tc main_v51)
      = Cert.Aggregation.aggregate (F := F) (extractStridedSlice S50000x200 ![0, 0] O slices_S50000x400_S50000x200_0_0) b e := by
  subst hO hb he
  exact result Vv

end Cert.KernelIdeal.TailMu

end
-- ==== Proof.KITailLs.lean ====
/-
  The second result of `KernelIdeal` as the later lines compute it, from ANY buffer contents `Vv` at the region's exit: it is
  the graph aggregation (`Cert.Aggregation.aggregate`) of columns 200…399 of the product array, the second bias and the
  edge list. The eighty later lines are read back in one pass; what is left is the aggregation's own term.
-/
import proofs.«111632_j49435073577269_1_alg».proof.Proof.KIHost
import proofs.«111632_j49435073577269_1_alg».proof.Proof.Aggregation
import Idealize.ShloMosaic.Lib.StableHlo.Run

noncomputable section

namespace Cert.KernelIdeal.TailLs

open Idealize.ShloMosaic Idealize.ShloMosaic.TcCoe Idealize.SL.Sem Idealize.ShloMosaic.StableHlo
open Cert.KernelIdeal Cert.KernelIdeal.Gen Cert.KernelIdeal.Host

variable {F : FTy → Type} [FloatOps F]

set_option maxRecDepth 16384 in
set_option maxHeartbeats 64000000 in
theorem result (Vv : Valuation τ sig (Elt F)) :
    StableHlo.after (List.flatten (tailOps : List (List (HloOp τ sig (Elt F))))) Vv (Proc.devRef .tc main_v67)
      = Cert.Aggregation.aggregate (F := F)
          (extractStridedSlice S50000x200 ![0, 200] (Vv (Proc.devRef .tc main_v3)) slices_S50000x400_S50000x200_0_200)
          (Vv (Proc.devRef .tc main_arg4)) (Vv (Proc.devRef .tc main_arg5)) := by
  simp only [tailOps, hostOps1, hostOps1_1, hostOps1_2, List.flatten_cons, List.flatten_nil, List.append_nil,
    List.cons_append, List.nil_append]
  after_results_simp
  rfl

/-- The same with the three buffers it reads named: the product array `O`, the bias `b`, the edge list `e`. -/
theorem result_of (Vv : Valuation τ sig (Elt F)) (O : (⟨S50000x400, .f32⟩ : BufTy).Contents (Elt F))
    (b : (⟨S200, .f32⟩ : BufTy).Contents (Elt F)) (e : (⟨S2x800000, .i32⟩ : BufTy).Contents (Elt F))
    (hO : Vv (Proc.devRef .tc main_v3) = O) (hb : Vv (Proc.devRef .tc main_arg4) = b) (he : Vv (Proc.devRef .tc main_arg5) = e) :
    StableHlo.after (List.flatten (tailOps : List (List (HloOp τ sig (Elt F))))) Vv (Proc.devRef .tc main_v67)
      = Cert.Aggregation.aggregate (F := F) (extractStridedSlice S50000x200 ![0, 200] O slices_S50000x400_S50000x200_0_200) b e := by
  subst hO hb he
  exact result Vv

end Cert.KernelIdeal.TailLs

end
-- ==== Proof.KIValue.lean ====
/-
  The two results of `KernelIdeal` on the extended reals. After the region the product array holds `X·[W_mu | W_ls]`
  (`Final.final`), the arguments are as launched, and the later lines compute each result as the graph aggregation of a
  column slice of the product array: columns 0…199 for the first, 200…399 for the second. Columns 0…199 of
  `X·[W_mu | W_ls]` are `X·W_mu` and columns 200…399 are `X·W_ls` (`Cert.Product.cols_left`, `cols_right`), so the
  results are  aggregate (X·W_mu) b_mu edges  and  aggregate (X·W_ls) b_ls edges.
-/
import proofs.«111632_j49435073577269_1_alg».proof.Proof.KIRun
import proofs.«111632_j49435073577269_1_alg».proof.Proof.KIFinal
import proofs.«111632_j49435073577269_1_alg».proof.Proof.KITailMu
import proofs.«111632_j49435073577269_1_alg».proof.Proof.KITailLs

set_option maxRecDepth 16384

noncomputable section

namespace Cert.KernelIdeal.Results

open Idealize.ShloMosaic Idealize.ShloMosaic.TcCoe
open Idealize.SL Idealize.SL.RA Idealize.SL.Sem
open Idealize.ShloMosaic.Pipeline (Dat Cfg)
open Cert.KernelIdeal Cert.KernelIdeal.Gen Cert.KernelIdeal.Host Cert.KernelIdeal.Region Cert.KernelIdeal.Final Cert.Product

variable (m : (ℓ : Loc nD τ sig) → Buf (Elt Ideal) ℓ)

/-- Core `c`'s buffer contents when the region is left: its three arrays as the pipeline left them, the rest as found. -/
abbrev exitV (c : Dev nD) : Valuation τ sig (Elt Ideal) :=
  Pipeline.withArrays spec0 c (V0 m c) fun w => (dats m 0 c).arrAt w cfg0.N

/-- The product array at the region's exit: the first argument times the two weight matrices side by side. -/
theorem exit_prod (c : Dev nD) : (exitV m c (Proc.devRef .tc main_v3) : S50000x400.Idx → EReal)
    = prod (m ((c : Thread nD τ).loc main_arg0))
        (concatenate S512x400 1 [⟨S512x200, m ((c : Thread nD τ).loc main_arg1)⟩, ⟨S512x200, m ((c : Thread nD τ).loc main_arg3)⟩] concatenates_S512x200_S512x200_S512x400_d1) :=
  (Pipeline.withArrays_arr spec0 launch0.win.arr_inj c (V0 m c) _ 2).trans
    ((final m c).trans (congrArg₂ prod (V_lhs m c) (V_rhs m c)))

/-- An argument at the region's exit is as launched. -/
theorem exit_arg (c : Dev nD) (b : Ref sig .tc) (harr : ∀ w, Pipeline.arrRef spec0 w ≠ b)
    (hh : b ∉ ([main_v0, main_v1, main_v2] : List (Ref sig .tc))) :
    exitV m c (Proc.devRef .tc b) = m ((c : Thread nD τ).loc b) :=
  (Pipeline.withArrays_of_ne spec0 c (V0 m c) _ b harr).trans (V_of_not_head m c b hh)

/-- The first result: the aggregation of `X·W_mu`. -/
theorem result_mu (r : PUnit × MemSt nD τ sig (Elt Ideal))
    (h : Pipeline.FramePost cfgs (dats m) 0 (Pipeline.afterTail₀ cfgs (dats m) 0 (V0 m) tailOps) r) (c : Dev nD) :
    r.2.mem ((c.tc : Thread nD τ).loc main_v51)
      = Cert.Aggregation.aggregate (F := Ideal) (prodHalf (m ((c : Thread nD τ).loc main_arg0)) (m ((c : Thread nD τ).loc main_arg1)))
          (m ((c : Thread nD τ).loc main_arg2)) (m ((c : Thread nD τ).loc main_arg5)) := by
  refine ((h c).2 main_v51 (Pipeline.mem_restRefs_of main_v51 (by decide) (by decide))).trans ?_
  unfold Pipeline.afterTail₀
  refine (Cert.KernelIdeal.TailMu.result_of (exitV m c) _ _ _ (exit_prod m c)
    (exit_arg m c main_arg2 (by decide) (by decide)) (exit_arg m c main_arg5 (by decide) (by decide))).trans ?_
  exact congrArg (fun hh => Cert.Aggregation.aggregate (F := Ideal) hh _ _) (cols_left _ _ _ _ _)

/-- The second result: the aggregation of `X·W_ls`. -/
theorem result_ls (r : PUnit × MemSt nD τ sig (Elt Ideal))
    (h : Pipeline.FramePost cfgs (dats m) 0 (Pipeline.afterTail₀ cfgs (dats m) 0 (V0 m) tailOps) r) (c : Dev nD) :
    r.2.mem ((c.tc : Thread nD τ).loc main_v67)
      = Cert.Aggregation.aggregate (F := Ideal) (prodHalf (m ((c : Thread nD τ).loc main_arg0)) (m ((c : Thread nD τ).loc main_arg3)))
          (m ((c : Thread nD τ).loc main_arg4)) (m ((c : Thread nD τ).loc main_arg5)) := by
  refine ((h c).2 main_v67 (Pipeline.mem_restRefs_of main_v67 (by decide) (by decide))).trans ?_
  unfold Pipeline.afterTail₀
  refine (Cert.KernelIdeal.TailLs.result_of (exitV m c) _ _ _ (exit_prod m c)
    (exit_arg m c main_arg4 (by decide) (by decide)) (exit_arg m c main_arg5 (by decide) (by decide))).trans ?_
  exact congrArg (fun hh => Cert.Aggregation.aggregate (F := Ideal) hh _ _) (cols_right _ _ _ _ _)

end Cert.KernelIdeal.Results

end
-- ==== Proof.RefDot.lean ====
/-
  The reference's matrix product at an index, on the extended reals: the host's contraction of a 50000×512 matrix with a
  512×200 matrix has, at row `r` and column `c`, the value  Σ_{k<512} left[r,k] · right[k,c]  (no accumulator, no
  schedule left in it).
-/
import proofs.«111632_j49435073577269_1_alg».proof.Proof.Gen.ReferenceIdeal
import Idealize.ShloMosaic.PureOps.Ideal.Laws
import Idealize.ShloMosaic.Lib.ValueIdx
import Idealize.ShloMosaic.Lib.Pipeline.Value

set_option maxRecDepth 16384

noncomputable section

namespace Cert.ReferenceIdeal.WholeProduct

open Cert.ReferenceIdeal Cert.ReferenceIdeal.Gen Idealize.ShloMosaic Idealize.ShloMosaic.ValueIdx

theorem lhs_row (i : S50000x200.Idx) (q : dot_S50000x512_S512x200_S50000x200_1_0_0_1_n_n.contr.Idx) : (dot_S50000x512_S512x200_S50000x200_1_0_0_1_n_n.lhsIdx i q 0).val = (i 0).val := by
  unfold DotDims.lhsIdx
  rw [dif_neg (show ¬(0 : Fin S50000x512.rank) ∈ dot_S50000x512_S512x200_S50000x200_1_0_0_1_n_n.lhsBatch by decide), dif_pos (show (0 : Fin S50000x512.rank) ∈ dot_S50000x512_S512x200_S50000x200_1_0_0_1_n_n.lhsNonContracting by decide)]
  rfl
theorem lhs_k (i : S50000x200.Idx) (q : dot_S50000x512_S512x200_S50000x200_1_0_0_1_n_n.contr.Idx) : (dot_S50000x512_S512x200_S50000x200_1_0_0_1_n_n.lhsIdx i q 1).val = (q ⟨0, by decide⟩).val :=
  dot_S50000x512_S512x200_S50000x200_1_0_0_1_n_n.lhsIdx_val_of_single rfl i q
theorem rhs_k (i : S50000x200.Idx) (q : dot_S50000x512_S512x200_S50000x200_1_0_0_1_n_n.contr.Idx) : (dot_S50000x512_S512x200_S50000x200_1_0_0_1_n_n.rhsIdx i q 0).val = (q ⟨0, by decide⟩).val :=
  dot_S50000x512_S512x200_S50000x200_1_0_0_1_n_n.rhsIdx_val_of_single rfl i q
theorem rhs_col (i : S50000x200.Idx) (q : dot_S50000x512_S512x200_S50000x200_1_0_0_1_n_n.contr.Idx) : (dot_S50000x512_S512x200_S50000x200_1_0_0_1_n_n.rhsIdx i q 1).val = (i 1).val := by
  unfold DotDims.rhsIdx
  rw [dif_neg (show ¬(1 : Fin S512x200.rank) ∈ dot_S50000x512_S512x200_S50000x200_1_0_0_1_n_n.rhsBatch by decide), dif_pos (show (1 : Fin S512x200.rank) ∈ dot_S50000x512_S512x200_S50000x200_1_0_0_1_n_n.rhsNonContracting by decide)]
  rfl

/-- The record's sum over its contraction index is the sum over `k < 512` of left[row, k] · right[k, column]. -/
theorem sum_contr (l : S50000x512.Idx → EReal) (r : S512x200.Idx → EReal) (i : S50000x200.Idx) :
    ∑ q : dot_S50000x512_S512x200_S50000x200_1_0_0_1_n_n.contr.Idx, l (dot_S50000x512_S512x200_S50000x200_1_0_0_1_n_n.lhsIdx i q) * r (dot_S50000x512_S512x200_S50000x200_1_0_0_1_n_n.rhsIdx i q) = ∑ k : Fin 512, l (ix2 (i 0) k) * r (ix2 k (i 1)) := by
  rw [← Equiv.sum_comp (ValueIdx.contrEquiv1 dot_S50000x512_S512x200_S50000x200_1_0_0_1_n_n 512 rfl rfl).symm]
  refine Finset.sum_congr rfl fun k _ => ?_
  have hk := ValueIdx.contrEquiv1_symm_val dot_S50000x512_S512x200_S50000x200_1_0_0_1_n_n 512 rfl rfl k
  have el : dot_S50000x512_S512x200_S50000x200_1_0_0_1_n_n.lhsIdx i ((ValueIdx.contrEquiv1 dot_S50000x512_S512x200_S50000x200_1_0_0_1_n_n 512 rfl rfl).symm k) = ix2 (i 0) k := funext fun a => Fin.ext (by
    match a with
    | ⟨0, _⟩ => exact lhs_row _ _
    | ⟨1, _⟩ => exact (lhs_k _ _).trans hk)
  have er : dot_S50000x512_S512x200_S50000x200_1_0_0_1_n_n.rhsIdx i ((ValueIdx.contrEquiv1 dot_S50000x512_S512x200_S50000x200_1_0_0_1_n_n 512 rfl rfl).symm k) = ix2 k (i 1) := funext fun a => Fin.ext (by
    match a with
    | ⟨0, _⟩ => exact (rhs_k _ _).trans hk
    | ⟨1, _⟩ => exact rhs_col _ _)
  exact congrArg₂ (· * ·) (congrArg l el) (congrArg r er)

/-- The host's product at row `i 0`, column `i 1`. -/
theorem dot_apply (x : FVec Ideal S50000x512 .f32) (w : FVec Ideal S512x200 .f32) (i : S50000x200.Idx) :
    Host.dotGeneral (F := Ideal) dot_S50000x512_S512x200_S50000x200_1_0_0_1_n_n none x w i = ∑ k : Fin 512, x (ix2 (i 0) k) * w (ix2 k (i 1)) := by
  simp only [Host.dotGeneral]
  rw [Ideal.dotGeneral_apply]
  exact sum_contr x w i

end Cert.ReferenceIdeal.WholeProduct

end
-- ==== Proof.RefValue.lean ====
/-
  The two results of the reference on the extended reals: its run ends each result at the composed term of its eighty
  host operations, and that term is the graph aggregation applied to the host's product of the first argument with one
  weight matrix; the host's product, entry by entry, is `Cert.Product.prodHalf`.
-/
import proofs.«111632_j49435073577269_1_alg».proof.Proof.RefRun
import proofs.«111632_j49435073577269_1_alg».proof.Proof.RefDot
import proofs.«111632_j49435073577269_1_alg».proof.Proof.Product
import proofs.«111632_j49435073577269_1_alg».proof.Proof.Aggregation

set_option maxRecDepth 16384

noncomputable section

namespace Cert.ReferenceIdeal.Results

open Idealize.ShloMosaic Idealize.ShloMosaic.TcCoe Idealize.SL.Sem
open Cert.ReferenceIdeal Cert.ReferenceIdeal.Gen Cert.Product

variable (m : (ℓ : Loc nD τ sig) → Buf (Elt Ideal) ℓ)

/-- The host's product is the entry-by-entry product. -/
theorem dot_eq (x : FVec Ideal S50000x512 .f32) (w : FVec Ideal S512x200 .f32) :
    (Host.dotGeneral (F := Ideal) dot_S50000x512_S512x200_S50000x200_1_0_0_1_n_n none x w : S50000x200.Idx → EReal) = prodHalf x w :=
  funext fun i => Cert.ReferenceIdeal.WholeProduct.dot_apply x w i

/-- The first result: the aggregation of `X·W_mu`. -/
theorem result_mu (c : Dev nD) :
    Cert.ReferenceIdeal.ValueP.res_main_v46 (F := Ideal) m c
      = Cert.Aggregation.aggregate (F := Ideal) (prodHalf (m ((c.tc : Thread nD τ).loc main_arg0)) (m ((c.tc : Thread nD τ).loc main_arg1)))
          (m ((c.tc : Thread nD τ).loc main_arg2)) (m ((c.tc : Thread nD τ).loc main_arg5)) :=
  (show Cert.ReferenceIdeal.ValueP.res_main_v46 (F := Ideal) m c
      = Cert.Aggregation.aggregate (F := Ideal)
          (Host.dotGeneral (F := Ideal) dot_S50000x512_S512x200_S50000x200_1_0_0_1_n_n none (m ((c.tc : Thread nD τ).loc main_arg0)) (m ((c.tc : Thread nD τ).loc main_arg1)))
          (m ((c.tc : Thread nD τ).loc main_arg2)) (m ((c.tc : Thread nD τ).loc main_arg5)) from rfl).trans
    (congrArg (fun hh => Cert.Aggregation.aggregate (F := Ideal) hh _ _) (dot_eq _ _))

/-- The second result: the aggregation of `X·W_ls`. -/
theorem result_ls (c : Dev nD) :
    Cert.ReferenceIdeal.ValueP.res_main_v63 (F := Ideal) m c
      = Cert.Aggregation.aggregate (F := Ideal) (prodHalf (m ((c.tc : Thread nD τ).loc main_arg0)) (m ((c.tc : Thread nD τ).loc main_arg3)))
          (m ((c.tc : Thread nD τ).loc main_arg4)) (m ((c.tc : Thread nD τ).loc main_arg5)) :=
  (show Cert.ReferenceIdeal.ValueP.res_main_v63 (F := Ideal) m c
      = Cert.Aggregation.aggregate (F := Ideal)
          (Host.dotGeneral (F := Ideal) dot_S50000x512_S512x200_S50000x200_1_0_0_1_n_n none (m ((c.tc : Thread nD τ).loc main_arg0)) (m ((c.tc : Thread nD τ).loc main_arg3)))
          (m ((c.tc : Thread nD τ).loc main_arg4)) (m ((c.tc : Thread nD τ).loc main_arg5)) from rfl).trans
    (congrArg (fun hh => Cert.Aggregation.aggregate (F := Ideal) hh _ _) (dot_eq _ _))

end Cert.ReferenceIdeal.Results

end
-- ==== Proof.lean ====
/-
  The certificate of a fused projection for two graph convolutions.
  The kernel multiplies the node features `X` (50000×512) by the two weight matrices laid side by side,
  `[W_mu | W_ls]` (512×400), in ten row blocks on the matrix unit, then takes columns 0…199 and 200…399 of the product and
  sends each through the graph aggregation (self-loops, symmetric degree normalisation, gather, scale, scatter-add, bias).
  The reference multiplies `X` by `W_mu` and by `W_ls` separately and sends each product through the same aggregation.
  On the extended reals a change of float format is the identity and a product is its plain sum, so the two agree once
  columns 0…199 of `X·[W_mu | W_ls]` are `X·W_mu` and columns 200…399 are `X·W_ls` — each entry of a product reads one
  column of the right matrix, and the sums have the same terms: no rearrangement, no use of finiteness.
  The three frames: each program runs to the end without a fault and leaves its six arguments as launched — the two
  kernel programs by the pipeline's launch theorem around the region (earlier lines, region, later lines), the reference
  by its run read back. The idealization rewrote nothing, so `preserves` is `True`.
-/
import proofs.«111632_j49435073577269_1_alg».proof.Defs
import proofs.«111632_j49435073577269_1_alg».proof.Proof.Gen.Kernel
import proofs.«111632_j49435073577269_1_alg».proof.Proof.Gen.KernelIdeal
import proofs.«111632_j49435073577269_1_alg».proof.Proof.Gen.ReferenceIdeal
import proofs.«111632_j49435073577269_1_alg».proof.Proof.Gen.Pre_finite_inputs
import proofs.«111632_j49435073577269_1_alg».proof.Proof.KRun
import proofs.«111632_j49435073577269_1_alg».proof.Proof.KIRun
import proofs.«111632_j49435073577269_1_alg».proof.Proof.KIValue
import proofs.«111632_j49435073577269_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Run.frame m ρ

theorem frame_kernelIdeal : Cert.frame_KernelIdeal := fun m ρ _ => Cert.KernelIdeal.Run.frame m ρ

/-- The reference's frame is its run with the two results dropped. -/
theorem frame_reference : Cert.frame_ReferenceIdeal := fun m ρ _ =>
  (θ_run Cert.ReferenceIdeal.defs _ _).mono (fun _ h c => (h c).2.2) (Cert.ReferenceIdeal.ValueP.run (F := Ideal) m ρ)

theorem preserves : Cert.preserves_Kernel_KernelIdeal := trivial

/-- Both programs end with each result at the aggregation of `X·W` for its own weight matrix `W`, of arguments that
    agree. -/
theorem algebraic : Cert.algebraic_KernelIdeal_ReferenceIdeal := by
  intro m ρ m' ρ' _ hagree
  refine ⟨_, _, (θ_run Cert.KernelIdeal.defs _ _).mono (fun r h c =>
      ⟨Cert.KernelIdeal.Results.result_mu m r h c, Cert.KernelIdeal.Results.result_ls m r h c,
        Cert.KernelIdeal.Run.arg_kept m r h c Cert.KernelIdeal.main_arg0 (by decide) (by decide) (by decide) (by decide) (by decide),
        Cert.KernelIdeal.Run.arg_kept m r h c Cert.KernelIdeal.main_arg1 (by decide) (by decide) (by decide) (by decide) (by decide),
        Cert.KernelIdeal.Run.arg_kept m r h c Cert.KernelIdeal.main_arg2 (by decide) (by decide) (by decide) (by decide) (by decide),
        Cert.KernelIdeal.Run.arg_kept m r h c Cert.KernelIdeal.main_arg3 (by decide) (by decide) (by decide) (by decide) (by decide),
        Cert.KernelIdeal.Run.arg_kept m r h c Cert.KernelIdeal.main_arg4 (by decide) (by decide) (by decide) (by decide) (by decide),
        Cert.KernelIdeal.Run.arg_kept m r h c Cert.KernelIdeal.main_arg5 (by decide) (by decide) (by decide) (by decide) (by decide)⟩)
      (Cert.KernelIdeal.Run.run_main m ρ), ?_⟩
  refine (θ_run Cert.ReferenceIdeal.defs _ _).mono (fun r h c => ⟨(h c).1.trans ?_, (h c).2.1.trans ?_, (h c).2.2⟩)
    (Cert.ReferenceIdeal.ValueP.run (F := Ideal) m' ρ')
  · rw [Cert.ReferenceIdeal.Results.result_mu, (hagree c).1, (hagree c).2.1, (hagree c).2.2.1, (hagree c).2.2.2.2.2]
  · rw [Cert.ReferenceIdeal.Results.result_ls, (hagree c).1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
